-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩

class Facts : Prop where
  bcast_S_S16x524288x4 : S_.BroadcastsInDim S16x524288x4 (![] : Fin 0 → Fin S16x524288x4.rank)
  reducesTo_S16x524288x4_S_d0_1_2 : S16x524288x4.ReducesTo [0, 1, 2] S_
  h_S_ : 0 < S_.numel
  bcast_S_S10x16x65536x4 : S_.BroadcastsInDim S10x16x65536x4 (![] : Fin 0 → Fin S10x16x65536x4.rank)
  reducesTo_S10x16x65536x4_S_d0_1_2_3 : S10x16x65536x4.ReducesTo [0, 1, 2, 3] S_

variable [Facts]

def fn {F : FTy → Type} [FloatOps F] (main_arg0 : FVec F S16x524288x4 .f32) (main_arg1 : FVec F S10x16x65536x4 .f32) (main_arg2 : IVec S16x9261x30 32) (main_arg3 : IVec S16x9261 32) : IVec S_ 1 :=
  let main_v0 : FVec F S16x524288x4 .f32 := Host.absf main_arg0
  let main_cst : FVec F S_ .f32 := constant S_ .f32 0x7F800000#32
  let main_v1 : FVec F S16x524288x4 .f32 := broadcastInDim S16x524288x4 ![] bcast_S_S16x524288x4 main_cst
  let main_v2 : IVec S16x524288x4 1 := cmpf .olt main_v0 main_v1
  let main_c : IVec S_ 1 := constantI S_ 1 1#1
  let main_v3 : IVec S_ 1 := (fun x v => Host.reduce IntOp.andi x v reducesTo_S16x524288x4_S_d0_1_2 h_S_) main_v2 main_c
  let main_v4 : FVec F S10x16x65536x4 .f32 := Host.absf main_arg1
  let main_cst_0 : FVec F S_ .f32 := constant S_ .f32 0x7F800000#32
  let main_v5 : FVec F S10x16x65536x4 .f32 := broadcastInDim S10x16x65536x4 ![] bcast_S_S10x16x65536x4 main_cst_0
  let main_v6 : IVec S10x16x65536x4 1 := cmpf .olt main_v4 main_v5
  let main_c_1 : IVec S_ 1 := constantI S_ 1 1#1
  let main_v7 : IVec S_ 1 := (fun x v => Host.reduce IntOp.andi x v reducesTo_S10x16x65536x4_S_d0_1_2_3 h_S_) main_v6 main_c_1
  let main_v8 : IVec S_ 1 := andi main_v3 main_v7
  main_v8
-- ==== Kernel.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩
abbrev S16x9261x30x1 : Shape := ⟨4, ![16, 9261, 30, 1]⟩
abbrev S16x9261x30x4 : Shape := ⟨4, ![16, 9261, 30, 4]⟩
abbrev S16x9261x1 : Shape := ⟨3, ![16, 9261, 1]⟩
abbrev S16x10x65536x4 : Shape := ⟨4, ![16, 10, 65536, 4]⟩
abbrev S16x10x9261x4 : Shape := ⟨4, ![16, 10, 9261, 4]⟩
abbrev S16x9261x10x4 : Shape := ⟨4, ![16, 9261, 10, 4]⟩
abbrev S16x1x128 : Shape := ⟨3, ![16, 1, 128]⟩
abbrev S1x441x30x4 : Shape := ⟨4, ![1, 441, 30, 4]⟩
abbrev S1x441x10x4 : Shape := ⟨4, ![1, 441, 10, 4]⟩
abbrev S1x1x128 : Shape := ⟨3, ![1, 1, 128]⟩
abbrev S1x128 : Shape := ⟨2, ![1, 128]⟩
abbrev S441x30x4 : Shape := ⟨3, ![441, 30, 4]⟩
abbrev S441x10x4 : Shape := ⟨3, ![441, 10, 4]⟩
abbrev S441x30 : Shape := ⟨2, ![441, 30]⟩
abbrev S441x30x1 : Shape := ⟨3, ![441, 30, 1]⟩
abbrev S441x10 : Shape := ⟨2, ![441, 10]⟩
abbrev S441x1x10 : Shape := ⟨3, ![441, 1, 10]⟩
abbrev S441x30x1x4 : Shape := ⟨4, ![441, 30, 1, 4]⟩
abbrev S441x1x10x4 : Shape := ⟨4, ![441, 1, 10, 4]⟩
abbrev S441x30x10x4 : Shape := ⟨4, ![441, 30, 10, 4]⟩
abbrev S441x30x10 : Shape := ⟨3, ![441, 30, 10]⟩
abbrev S441x30x10x1 : Shape := ⟨4, ![441, 30, 10, 1]⟩
abbrev S441 : Shape := ⟨1, ![441]⟩
abbrev S441x1 : Shape := ⟨2, ![441, 1]⟩
abbrev S1 : Shape := ⟨1, ![1]⟩
abbrev S1x1 : Shape := ⟨2, ![1, 1]⟩
abbrev S441x1x30x4 : Shape := ⟨4, ![441, 1, 30, 4]⟩
abbrev S441x30x30x4 : Shape := ⟨4, ![441, 30, 30, 4]⟩
abbrev S441x30x30 : Shape := ⟨3, ![441, 30, 30]⟩
abbrev S441x1x30 : Shape := ⟨3, ![441, 1, 30]⟩
abbrev S16x1x1 : Shape := ⟨3, ![16, 1, 1]⟩
abbrev S16 : Shape := ⟨1, ![16]⟩

abbrev nBuf : Space → Nat
  | .hbm => 41
  | .vmem => 8
  | .smem => 0
  | _ => 0

abbrev bufTy : (tb : Table) → Fin (tcTables nBuf tb) → BufTy
  | .hbm, ⟨0, _⟩ => ⟨S16x524288x4, .f32⟩
  | .hbm, ⟨1, _⟩ => ⟨S10x16x65536x4, .f32⟩
  | .hbm, ⟨2, _⟩ => ⟨S16x9261x30, .i32⟩
  | .hbm, ⟨3, _⟩ => ⟨S16x9261, .i32⟩
  | .hbm, ⟨4, _⟩ => ⟨S_, .i32⟩
  | .hbm, ⟨5, _⟩ => ⟨S16x9261x30, .i32⟩
  | .hbm, ⟨6, _⟩ => ⟨S16x9261x30, .i1⟩
  | .hbm, ⟨7, _⟩ => ⟨S_, .i32⟩
  | .hbm, ⟨8, _⟩ => ⟨S16x9261x30, .i32⟩
  | .hbm, ⟨9, _⟩ => ⟨S16x9261x30, .i32⟩
  | .hbm, ⟨10, _⟩ => ⟨S16x9261x30, .i32⟩
  | .hbm, ⟨11, _⟩ => ⟨S16x9261x30x1, .i32⟩
  | .hbm, ⟨12, _⟩ => ⟨S16x9261x30x4, .f32⟩
  | .hbm, ⟨13, _⟩ => ⟨S_, .i32⟩
  | .hbm, ⟨14, _⟩ => ⟨S16x9261, .i32⟩
  | .hbm, ⟨15, _⟩ => ⟨S16x9261, .i1⟩
  | .hbm, ⟨16, _⟩ => ⟨S_, .i32⟩
  | .hbm, ⟨17, _⟩ => ⟨S16x9261, .i32⟩
  | .hbm, ⟨18, _⟩ => ⟨S16x9261, .i32⟩
  | .hbm, ⟨19, _⟩ => ⟨S16x9261, .i32⟩
  | .hbm, ⟨20, _⟩ => ⟨S16x9261x1, .i32⟩
  | .hbm, ⟨21, _⟩ => ⟨S16x10x65536x4, .f32⟩
  | .hbm, ⟨22, _⟩ => ⟨S16x10x9261x4, .f32⟩
  | .hbm, ⟨23, _⟩ => ⟨S16x9261x10x4, .f32⟩
  | .hbm, ⟨24, _⟩ => ⟨S16x1x128, .f32⟩
  | .hbm, ⟨25, _⟩ => ⟨S16x1x128, .f32⟩
  | .hbm, ⟨26, _⟩ => ⟨S16x1x1, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x1x1, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1x441x30x4, .f32⟩
  | .local _ .vmem, ⟨1, _⟩ => ⟨S1x441x30x4, .f32⟩
  | .local _ .vmem, ⟨2, _⟩ => ⟨S1x441x10x4, .f32⟩
  | .local _ .vmem, ⟨3, _⟩ => ⟨S1x441x10x4, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S16x524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 21], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x441x30x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x441x10x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16x9261x30 : S_.BroadcastsInDim S16x9261x30 (![] : Fin 0 → Fin S16x9261x30.rank)
  bcast_S16x9261x30_S16x9261x30x1_0_1_2 : S16x9261x30.BroadcastsInDim S16x9261x30x1 (![0, 1, 2] : Fin 3 → Fin S16x9261x30x1.rank)
  bcast_S_S16x9261 : S_.BroadcastsInDim S16x9261 (![] : Fin 0 → Fin S16x9261.rank)
  bcast_S16x9261_S16x9261x1_0_1 : S16x9261.BroadcastsInDim S16x9261x1 (![0, 1] : Fin 2 → Fin S16x9261x1.rank)
  transposes_S10x16x65536x4_S16x10x65536x4_1_0_2_3 : S10x16x65536x4.Transposes [1, 0, 2, 3] S16x10x65536x4
  transposes_S16x10x9261x4_S16x9261x10x4_0_2_1_3 : S16x10x9261x4.Transposes [0, 2, 1, 3] S16x9261x10x4
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x441x30x4_S1x441x30x4_0_0_0_0 : ∀ a, (![0, 0, 0, 0] : Fin 4 → Nat) a + S1x441x30x4.size a ≤ S1x441x30x4.size a
  h_S1x441x30x4 : 0 < S1x441x30x4.numel
  shapeCasts_S1x441x30x4_S441x30x4 : S1x441x30x4.ShapeCasts S441x30x4
  inb_S1x441x10x4_S1x441x10x4_0_0_0_0 : ∀ a, (![0, 0, 0, 0] : Fin 4 → Nat) a + S1x441x10x4.size a ≤ S1x441x10x4.size a
  h_S1x441x10x4 : 0 < S1x441x10x4.numel
  shapeCasts_S1x441x10x4_S441x10x4 : S1x441x10x4.ShapeCasts S441x10x4
  reduces_S441x30x4_S441x30 : S441x30x4.Reduces [2] S441x30
  shapeCasts_S441x30_S441x30x1 : S441x30.ShapeCasts S441x30x1
  reduces_S441x10x4_S441x10 : S441x10x4.Reduces [2] S441x10
  shapeCasts_S441x10_S441x1x10 : S441x10.ShapeCasts S441x1x10
  shapeCasts_S441x30x4_S441x30x1x4 : S441x30x4.ShapeCasts S441x30x1x4
  shapeCasts_S441x10x4_S441x1x10x4 : S441x10x4.ShapeCasts S441x1x10x4
  broadcasts_S441x30x1x4_S441x30x10x4 : S441x30x1x4.Broadcasts S441x30x10x4
  broadcasts_S441x1x10x4_S441x30x10x4 : S441x1x10x4.Broadcasts S441x30x10x4
  reduces_S441x30x10x4_S441x30x10 : S441x30x10x4.Reduces [3] S441x30x10
  broadcasts_S441x30x1_S441x30x10 : S441x30x1.Broadcasts S441x30x10
  broadcasts_S441x1x10_S441x30x10 : S441x1x10.Broadcasts S441x30x10
  reduces_S441x30x10_S441x30 : S441x30x10.Reduces [2] S441x30
  shapeCasts_S441x30x10_S441x30x10x1 : S441x30x10.ShapeCasts S441x30x10x1
  broadcasts_S441x30x10x1_S441x30x10x4 : S441x30x10x1.Broadcasts S441x30x10x4
  reduces_S441x30x10x4_S441x30x4 : S441x30x10x4.Reduces [2] S441x30x4
  reduces_S441x30_S441 : S441x30.Reduces [1] S441
  shapeCasts_S441_S441x1 : S441.ShapeCasts S441x1
  reduces_S441x1_S1 : S441x1.Reduces [0] S1
  shapeCasts_S1_S1x1 : S1.ShapeCasts S1x1
  shapeCasts_S441x30x4_S441x1x30x4 : S441x30x4.ShapeCasts S441x1x30x4
  broadcasts_S441x30x1x4_S441x30x30x4 : S441x30x1x4.Broadcasts S441x30x30x4
  broadcasts_S441x1x30x4_S441x30x30x4 : S441x1x30x4.Broadcasts S441x30x30x4
  reduces_S441x30x30x4_S441x30x30 : S441x30x30x4.Reduces [3] S441x30x30
  shapeCasts_S441x30_S441x1x30 : S441x30.ShapeCasts S441x1x30
  broadcasts_S441x30x1_S441x30x30 : S441x30x1.Broadcasts S441x30x30
  broadcasts_S441x1x30_S441x30x30 : S441x1x30.Broadcasts S441x30x30
  reduces_S441x30x30_S441x30 : S441x30x30.Reduces [2] S441x30
  iota_S1x128_d1_w32 : S1x128.Iotas .tc 32 [1]
  shapeCasts_S1x1_S1x1 : S1x1.ShapeCasts S1x1
  broadcasts_S1x1_S1x128 : S1x1.Broadcasts S1x128
  slices_S16x1x128_S16x1x1_0_0_0 : S16x1x128.Slices ![0, 0, 0] S16x1x1
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  gather_S16x524288x4_S16x9261x30x1_S16x9261x30x4_3_1_0_0_1_3_114_wf : GatherDims.WF S16x524288x4 S16x9261x30x1 S16x9261x30x4 [3] [1] [0] [1] [0] 3 ![1, 1, 4]
  gather_S16x10x65536x4_S16x9261x1_S16x10x9261x4_13_2_0_0_2_2_11014_wf : GatherDims.WF S16x10x65536x4 S16x9261x1 S16x10x9261x4 [1, 3] [2] [0] [2] [0] 2 ![1, 10, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x441x30x4.size a ≤ S16x9261x30x4.size a
  hwx0_0 : ∀ i : grid0.Coords, EltTy.bits .f32 = 32 ∨ (Rect.block (s := S16x9261x30x4) S1x441x30x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x441x10x4.size a ≤ S16x9261x10x4.size a
  hwx0_1 : ∀ i : grid0.Coords, EltTy.bits .f32 = 32 ∨ (Rect.block (s := S16x9261x10x4) S1x441x10x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def gather_S16x524288x4_S16x9261x30x1_S16x9261x30x4_3_1_0_0_1_3_114 : GatherDims S16x524288x4 S16x9261x30x1 S16x9261x30x4 where
  offsetDims := [3]
  collapsedSliceDims := [1]
  operandBatchingDims := [0]
  startIndicesBatchingDims := [0]
  startIndexMap := [1]
  indexVectorDim := 3
  sliceSizes := ![1, 1, 4]
  wf := gather_S16x524288x4_S16x9261x30x1_S16x9261x30x4_3_1_0_0_1_3_114_wf
def gather_S16x10x65536x4_S16x9261x1_S16x10x9261x4_13_2_0_0_2_2_11014 : GatherDims S16x10x65536x4 S16x9261x1 S16x10x9261x4 where
  offsetDims := [1, 3]
  collapsedSliceDims := [2]
  operandBatchingDims := [0]
  startIndicesBatchingDims := [0]
  startIndexMap := [2]
  indexVectorDim := 2
  sliceSizes := ![1, 10, 1, 4]
  wf := gather_S16x10x65536x4_S16x9261x1_S16x10x9261x4_13_2_0_0_2_2_11014_wf

abbrev win0_0 : Pipeline.Window sig grid0 :=
  Pipeline.Window.ofSpec (Memref.whole main_v6) S1x441x30x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x441x10x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩
abbrev S16x9261x30x1 : Shape := ⟨4, ![16, 9261, 30, 1]⟩
abbrev S16x9261x30x4 : Shape := ⟨4, ![16, 9261, 30, 4]⟩
abbrev S16x9261x1 : Shape := ⟨3, ![16, 9261, 1]⟩
abbrev S16x10x65536x4 : Shape := ⟨4, ![16, 10, 65536, 4]⟩
abbrev S16x10x9261x4 : Shape := ⟨4, ![16, 10, 9261, 4]⟩
abbrev S16x9261x10x4 : Shape := ⟨4, ![16, 9261, 10, 4]⟩
abbrev S16x9261x10 : Shape := ⟨3, ![16, 9261, 10]⟩
abbrev S16x9261x1x10 : Shape := ⟨4, ![16, 9261, 1, 10]⟩
abbrev S16x9261x30x10 : Shape := ⟨4, ![16, 9261, 30, 10]⟩
abbrev S16 : Shape := ⟨1, ![16]⟩
abbrev S16x9261x1x30 : Shape := ⟨4, ![16, 9261, 1, 30]⟩
abbrev S16x9261x30x30 : Shape := ⟨4, ![16, 9261, 30, 30]⟩

abbrev nBuf : Space → Nat
  | .hbm => 98
  | .vmem => 0
  | .smem => 0
  | _ => 0

abbrev bufTy : (tb : Table) → Fin (tcTables nBuf tb) → BufTy
  | .hbm, ⟨0, _⟩ => ⟨S16x524288x4, .f32⟩
  | .hbm, ⟨1, _⟩ => ⟨S10x16x65536x4, .f32⟩
  | .hbm, ⟨2, _⟩ => ⟨S16x9261x30, .i32⟩
  | .hbm, ⟨3, _⟩ => ⟨S16x9261, .i32⟩
  | .hbm, ⟨4, _⟩ => ⟨S_, .i32⟩
  | .hbm, ⟨5, _⟩ => ⟨S16x9261x30, .i32⟩
  | .hbm, ⟨6, _⟩ => ⟨S16x9261x30, .i1⟩
  | .hbm, ⟨7, _⟩ => ⟨S_, .i32⟩
  | .hbm, ⟨8, _⟩ => ⟨S16x9261x30, .i32⟩
  | .hbm, ⟨9, _⟩ => ⟨S16x9261x30, .i32⟩
  | .hbm, ⟨10, _⟩ => ⟨S16x9261x30, .i32⟩
  | .hbm, ⟨11, _⟩ => ⟨S16x9261x30x1, .i32⟩
  | .hbm, ⟨12, _⟩ => ⟨S16x9261x30x4, .f32⟩
  | .hbm, ⟨13, _⟩ => ⟨S_, .i32⟩
  | .hbm, ⟨14, _⟩ => ⟨S16x9261, .i32⟩
  | .hbm, ⟨15, _⟩ => ⟨S16x9261, .i1⟩
  | .hbm, ⟨16, _⟩ => ⟨S_, .i32⟩
  | .hbm, ⟨17, _⟩ => ⟨S16x9261, .i32⟩
  | .hbm, ⟨18, _⟩ => ⟨S16x9261, .i32⟩
  | .hbm, ⟨19, _⟩ => ⟨S16x9261, .i32⟩
  | .hbm, ⟨20, _⟩ => ⟨S16x9261x1, .i32⟩
  | .hbm, ⟨21, _⟩ => ⟨S16x10x65536x4, .f32⟩
  | .hbm, ⟨22, _⟩ => ⟨S16x10x9261x4, .f32⟩
  | .hbm, ⟨23, _⟩ => ⟨S16x9261x10x4, .f32⟩
  | .hbm, ⟨24, _⟩ => ⟨S16x9261x30x4, .f32⟩
  | .hbm, ⟨25, _⟩ => ⟨S_, .f32⟩
  | .hbm, ⟨26, _⟩ => ⟨S16x9261x30, .f32⟩
  | .hbm, ⟨27, _⟩ => ⟨S16x9261x30x1, .f32⟩
  | .hbm, ⟨28, _⟩ => ⟨S16x9261x10x4, .f32⟩
  | .hbm, ⟨29, _⟩ => ⟨S_, .f32⟩
  | .hbm, ⟨30, _⟩ => ⟨S16x9261x10, .f32⟩
  | .hbm, ⟨31, _⟩ => ⟨S16x9261x1x10, .f32⟩
  | .hbm, ⟨32, _⟩ => ⟨S16x9261x30x10, .f32⟩
  | .hbm, ⟨33, _⟩ => ⟨S16x9261x30x10, .f32⟩
  | .hbm, ⟨34, _⟩ => ⟨S16x9261x30x10, .f32⟩
  | .hbm, ⟨35, _⟩ => ⟨S16x9261x30x10, .f32⟩
  | .hbm, ⟨36, _⟩ => ⟨S_, .f32⟩
  | .hbm, ⟨37, _⟩ => ⟨S16x9261x30x10, .f32⟩
  | .hbm, ⟨38, _⟩ => ⟨S16x9261x30x10, .f32⟩
  | .hbm, ⟨39, _⟩ => ⟨S16x9261x30x10, .f32⟩
  | .hbm, ⟨40, _⟩ => ⟨S16x9261x30x10, .f32⟩
  | .hbm, ⟨41, _⟩ => ⟨S_, .f32⟩
  | .hbm, ⟨42, _⟩ => ⟨S16x9261x30x10, .f32⟩
  | .hbm, ⟨43, _⟩ => ⟨S16x9261x30x10, .f32⟩
  | .hbm, ⟨44, _⟩ => ⟨S16x9261x30x10, .f32⟩
  | .hbm, ⟨45, _⟩ => ⟨S_, .f32⟩
  | .hbm, ⟨46, _⟩ => ⟨S16x9261x30, .f32⟩
  | .hbm, ⟨47, _⟩ => ⟨S16x9261x30x1, .f32⟩
  | .hbm, ⟨48, _⟩ => ⟨S_, .f32⟩
  | .hbm, ⟨49, _⟩ => ⟨S16x9261x30x1, .f32⟩
  | .hbm, ⟨50, _⟩ => ⟨S16x9261x30x1, .f32⟩
  | .hbm, ⟨51, _⟩ => ⟨S16x9261x30x10, .f32⟩
  | .hbm, ⟨52, _⟩ => ⟨S16x9261x30x10, .f32⟩
  | .hbm, ⟨53, _⟩ => ⟨S16x9261x30x4, .f32⟩
  | .hbm, ⟨54, _⟩ => ⟨S16x9261x30x4, .f32⟩
  | .hbm, ⟨55, _⟩ => ⟨S16x9261x30x4, .f32⟩
  | .hbm, ⟨56, _⟩ => ⟨S_, .f32⟩
  | .hbm, ⟨57, _⟩ => ⟨S16x9261x30, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16x9261x30x4, .f32⟩
  | .hbm, ⟨64, _⟩ => ⟨S_, .f32⟩
  | .hbm, ⟨65, _⟩ => ⟨S16x9261x30, .f32⟩
  | .hbm, ⟨66, _⟩ => ⟨S16x9261x30x1, .f32⟩
  | .hbm, ⟨67, _⟩ => ⟨S16x9261x1x30, .f32⟩
  | .hbm, ⟨68, _⟩ => ⟨S16x9261x30x30, .f32⟩
  | .hbm, ⟨69, _⟩ => ⟨S16x9261x30x30, .f32⟩
  | .hbm, ⟨70, _⟩ => ⟨S16x9261x30x30, .f32⟩
  | .hbm, ⟨71, _⟩ => ⟨S16x9261x30x30, .f32⟩
  | .hbm, ⟨72, _⟩ => ⟨S_, .f32⟩
  | .hbm, ⟨73, _⟩ => ⟨S16x9261x30x30, .f32⟩
  | .hbm, ⟨74, _⟩ => ⟨S16x9261x30x30, .f32⟩
  | .hbm, ⟨75, _⟩ => ⟨S16x9261x30x30, .f32⟩
  | .hbm, ⟨76, _⟩ => ⟨S_, .f32⟩
  | .hbm, ⟨77, _⟩ => ⟨S16x9261x30x30, .f32⟩
  | .hbm, ⟨78, _⟩ => ⟨S16x9261x30x30, .f32⟩
  | .hbm, ⟨79, _⟩ => ⟨S_, .f32⟩
  | .hbm, ⟨80, _⟩ => ⟨S16x9261x30x30, .f32⟩
  | .hbm, ⟨81, _⟩ => ⟨S16x9261x30x30, .f32⟩
  | .hbm, ⟨82, _⟩ => ⟨S_, .f32⟩
  | .hbm, ⟨83, _⟩ => ⟨S16x9261x30x30, .f32⟩
  | .hbm, ⟨84, _⟩ => ⟨S16x9261x30x30, .f32⟩
  | .hbm, ⟨85, _⟩ => ⟨S_, .f32⟩
  | .hbm, ⟨86, _⟩ => ⟨S16x9261x30x30, .f32⟩
  | .hbm, ⟨87, _⟩ => ⟨S16x9261x30x30, .f32⟩
  | .hbm, ⟨88, _⟩ => ⟨S_, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S16x524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S_S16x9261x30 : S_.BroadcastsInDim S16x9261x30 (![] : Fin 0 → Fin S16x9261x30.rank)
  bcast_S16x9261x30_S16x9261x30x1_0_1_2 : S16x9261x30.BroadcastsInDim S16x9261x30x1 (![0, 1, 2] : Fin 3 → Fin S16x9261x30x1.rank)
  bcast_S_S16x9261 : S_.BroadcastsInDim S16x9261 (![] : Fin 0 → Fin S16x9261.rank)
  bcast_S16x9261_S16x9261x1_0_1 : S16x9261.BroadcastsInDim S16x9261x1 (![0, 1] : Fin 2 → Fin S16x9261x1.rank)
  transposes_S10x16x65536x4_S16x10x65536x4_1_0_2_3 : S10x16x65536x4.Transposes [1, 0, 2, 3] S16x10x65536x4
  transposes_S16x10x9261x4_S16x9261x10x4_0_2_1_3 : S16x10x9261x4.Transposes [0, 2, 1, 3] S16x9261x10x4
  reducesTo_S16x9261x30x4_S16x9261x30_d3 : S16x9261x30x4.ReducesTo [3] S16x9261x30
  h_S_ : 0 < S_.numel
  reducesTo_S16x9261x10x4_S16x9261x10_d3 : S16x9261x10x4.ReducesTo [3] S16x9261x10
  bcast_S16x9261x10_S16x9261x1x10_0_1_3 : S16x9261x10.BroadcastsInDim S16x9261x1x10 (![0, 1, 3] : Fin 3 → Fin S16x9261x1x10.rank)
  bcast_S16x9261x30x1_S16x9261x30x10_0_1_2_3 : S16x9261x30x1.BroadcastsInDim S16x9261x30x10 (![0, 1, 2, 3] : Fin 4 → Fin S16x9261x30x10.rank)
  bcast_S16x9261x1x10_S16x9261x30x10_0_1_2_3 : S16x9261x1x10.BroadcastsInDim S16x9261x30x10 (![0, 1, 2, 3] : Fin 4 → Fin S16x9261x30x10.rank)
  bcast_S_S16x9261x30x10 : S_.BroadcastsInDim S16x9261x30x10 (![] : Fin 0 → Fin S16x9261x30x10.rank)
  reducesTo_S16x9261x30x10_S16x9261x30_d3 : S16x9261x30x10.ReducesTo [3] S16x9261x30
  bcast_S_S16x9261x30x1 : S_.BroadcastsInDim S16x9261x30x1 (![] : Fin 0 → Fin S16x9261x30x1.rank)
  reducesTo_S16x9261x30_S16_d1_2 : S16x9261x30.ReducesTo [1, 2] S16
  bcast_S_S16 : S_.BroadcastsInDim S16 (![] : Fin 0 → Fin S16.rank)
  bcast_S16x9261x30_S16x9261x1x30_0_1_3 : S16x9261x30.BroadcastsInDim S16x9261x1x30 (![0, 1, 3] : Fin 3 → Fin S16x9261x1x30.rank)
  bcast_S16x9261x30x1_S16x9261x30x30_0_1_2_3 : S16x9261x30x1.BroadcastsInDim S16x9261x30x30 (![0, 1, 2, 3] : Fin 4 → Fin S16x9261x30x30.rank)
  bcast_S16x9261x1x30_S16x9261x30x30_0_1_2_3 : S16x9261x1x30.BroadcastsInDim S16x9261x30x30 (![0, 1, 2, 3] : Fin 4 → Fin S16x9261x30x30.rank)
  bcast_S_S16x9261x30x30 : S_.BroadcastsInDim S16x9261x30x30 (![] : Fin 0 → Fin S16x9261x30x30.rank)
  reducesTo_S16x9261x30x30_S16_d1_2_3 : S16x9261x30x30.ReducesTo [1, 2, 3] S16
  reducesTo_S16_S_d0 : S16.ReducesTo [0] S_
  gather_S16x524288x4_S16x9261x30x1_S16x9261x30x4_3_1_0_0_1_3_114_wf : GatherDims.WF S16x524288x4 S16x9261x30x1 S16x9261x30x4 [3] [1] [0] [1] [0] 3 ![1, 1, 4]
  gather_S16x10x65536x4_S16x9261x1_S16x10x9261x4_13_2_0_0_2_2_11014_wf : GatherDims.WF S16x10x65536x4 S16x9261x1 S16x10x9261x4 [1, 3] [2] [0] [2] [0] 2 ![1, 10, 1, 4]
  dot_S16x9261x30x4_S16x9261x10x4_S16x9261x30x10_3_3_2_2_01_01_wf : DotDims.WF S16x9261x30x4 S16x9261x10x4 S16x9261x30x10 [3] [3] [2] [2] [0, 1] [0, 1]
  dot_S16x9261x30x10_S16x9261x10x4_S16x9261x30x4_3_2_2_3_01_01_wf : DotDims.WF S16x9261x30x10 S16x9261x10x4 S16x9261x30x4 [3] [2] [2] [3] [0, 1] [0, 1]
  dot_S16x9261x30x4_S16x9261x30x4_S16x9261x30x30_3_3_2_2_01_01_wf : DotDims.WF S16x9261x30x4 S16x9261x30x4 S16x9261x30x30 [3] [3] [2] [2] [0, 1] [0, 1]

variable [Facts₀]

def gather_S16x524288x4_S16x9261x30x1_S16x9261x30x4_3_1_0_0_1_3_114 : GatherDims S16x524288x4 S16x9261x30x1 S16x9261x30x4 where
  offsetDims := [3]
  collapsedSliceDims := [1]
  operandBatchingDims := [0]
  startIndicesBatchingDims := [0]
  startIndexMap := [1]
  indexVectorDim := 3
  sliceSizes := ![1, 1, 4]
  wf := gather_S16x524288x4_S16x9261x30x1_S16x9261x30x4_3_1_0_0_1_3_114_wf
def gather_S16x10x65536x4_S16x9261x1_S16x10x9261x4_13_2_0_0_2_2_11014 : GatherDims S16x10x65536x4 S16x9261x1 S16x10x9261x4 where
  offsetDims := [1, 3]
  collapsedSliceDims := [2]
  operandBatchingDims := [0]
  startIndicesBatchingDims := [0]
  startIndexMap := [2]
  indexVectorDim := 2
  sliceSizes := ![1, 10, 1, 4]
  wf := gather_S16x10x65536x4_S16x9261x1_S16x10x9261x4_13_2_0_0_2_2_11014_wf
def dot_S16x9261x30x4_S16x9261x10x4_S16x9261x30x10_3_3_2_2_01_01 : DotDims S16x9261x30x4 S16x9261x10x4 S16x9261x30x10 where
  lhsContracting := [3]
  rhsContracting := [3]
  lhsNonContracting := [2]
  rhsNonContracting := [2]
  lhsBatch := [0, 1]
  rhsBatch := [0, 1]
  wf := dot_S16x9261x30x4_S16x9261x10x4_S16x9261x30x10_3_3_2_2_01_01_wf
def dot_S16x9261x30x10_S16x9261x10x4_S16x9261x30x4_3_2_2_3_01_01 : DotDims S16x9261x30x10 S16x9261x10x4 S16x9261x30x4 where
  lhsContracting := [3]
  rhsContracting := [2]
  lhsNonContracting := [2]
  rhsNonContracting := [3]
  lhsBatch := [0, 1]
  rhsBatch := [0, 1]
  wf := dot_S16x9261x30x10_S16x9261x10x4_S16x9261x30x4_3_2_2_3_01_01_wf
def dot_S16x9261x30x4_S16x9261x30x4_S16x9261x30x30_3_3_2_2_01_01 : DotDims S16x9261x30x4 S16x9261x30x4 S16x9261x30x30 where
  lhsContracting := [3]
  rhsContracting := [3]
  lhsNonContracting := [2]
  rhsNonContracting := [2]
  lhsBatch := [0, 1]
  rhsBatch := [0, 1]
  wf := dot_S16x9261x30x4_S16x9261x30x4_S16x9261x30x30_3_3_2_2_01_01_wf

class Facts : Prop extends Facts₀ where

variable [Facts]
-- ==== Proof.KernelIdealCases.lean ====
/-
  What one grid point leaves in the two accumulator blocks, as values.

  The body adds, into lane 0 of each of two [1, 1, 128] accumulator blocks, a number computed from the point's two input
  blocks: the push sum of the tile into the first, the pull sum into the second.  At the first tile of a level it first
  stores zeros, then adds to what it reads back (the zeros); at every other tile it adds to what the block held.
  So the first accumulator ends a point at `acc + lane0(push tile)` with `acc` the zero block or the block's contents
  before the point, and the second likewise with the pull sum.  The payload names are the generated skeleton's.
-/
import proofs.«160341_j88673894793881_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The push sum of a tile, from its two input blocks. -/
abbrev pushTile (x0 : Vec F S1x441x30x4 .f32) (x1 : Vec F S1x441x10x4 .f32) : FVec F S1x1 .f32 :=
  k0_pay11 (k0_pay7 x1) (k0_pay8 x0 x1)

/-- The pull sum of a tile, from its two input blocks. -/
abbrev pullTile (x0 : Vec F S1x441x30x4 .f32) (x1 : Vec F S1x441x10x4 .f32) : FVec F S1x1 .f32 :=
  k0_pay10 (k0_pay5 x0) (k0_pay7 x1) (k0_pay8 x0 x1)

/-- A later tile of a level: the first accumulator gains the tile's push sum in lane 0. -/
theorem out_B_2 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x441x30x4 .f32) (x1 : Vec F S1x441x10x4 .f32) (xo2 xo3 : Vec F S1x1x128 .f32) :
    out0_B_2 c i a2 h2 a3 h3 a4 h4 a5 h5 hc x0 x1 xo2 xo3 = k0_pay1 (pushTile x0 x1) (k0_pay12 xo2) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x441x30x4) hz4, View.ld_unit_zero (S := S1x441x10x4) hz4,
    View.ld_unit_zero (S := S1x1x128) hz3]

/-- A later tile of a level: the second accumulator gains the tile's pull sum in lane 0. -/
theorem out_B_3 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x441x30x4 .f32) (x1 : Vec F S1x441x10x4 .f32) (xo2 xo3 : Vec F S1x1x128 .f32) :
    out0_B_3 c i a2 h2 a3 h3 a4 h4 a5 h5 hc x0 x1 xo2 xo3 = k0_pay2 (pullTile x0 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x441x30x4) hz4, View.ld_unit_zero (S := S1x441x10x4) hz4,
    View.ld_unit_zero (S := S1x1x128) hz3]

/-- The first tile of a level: the first accumulator is the zero block plus the tile's push sum in lane 0. -/
theorem out_A_2 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x441x30x4 .f32) (x1 : Vec F S1x441x10x4 .f32) :
    out0_A_2 c i a2 h2 a3 h3 a4 h4 a5 h5 hc x0 x1 = k0_pay1 (pushTile x0 x1) (k0_pay12 k0_pay3) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread,
    View.ld_unit_zero (S := S1x441x30x4) hz4, View.ld_unit_zero (S := S1x441x10x4) hz4,
    View.ld_unit_zero (S := S1x1x128) hz3]

/-- The first tile of a level: the second accumulator is the zero block plus the tile's pull sum in lane 0. -/
theorem out_A_3 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x441x30x4 .f32) (x1 : Vec F S1x441x10x4 .f32) :
    out0_A_3 c i a2 h2 a3 h3 a4 h4 a5 h5 hc x0 x1 = k0_pay2 (pullTile x0 x1) k0_pay4 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread,
    View.ld_unit_zero (S := S1x441x30x4) hz4, View.ld_unit_zero (S := S1x441x10x4) hz4,
    View.ld_unit_zero (S := S1x1x128) hz3]

end Cert.KernelIdeal.Cases

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.RowMath.lean ====
/-
  The mathematics of one sample row, over the extended reals.

  A row is a block `e` of 30 query embeddings and a block `c` of 10 centroids, each a vector of 4 features.
  `dist2 t k` is the squared distance `|e t|² + |c k|² − 2 ⟨e t, c k⟩`, `softW` the soft assignment
  `exp(−dist2 / band)` normalised over the centroids (with the guard `cEpsW` in the denominator), `softC t` the soft
  centroid `∑ₖ softW t k · c k`.  The PULL term of the row is `∑ₜ |e t − softC t|²`; its PUSH term is
  `∑ₜ ∑ₛ 1 / (cEpsP + max(|softC t|² + |softC s|² − 2 ⟨softC t, softC s⟩, 0) / 2)`.
  The float literals stay the bit patterns both programs print: the same word on both sides is never evaluated.

  Also here: a sum over 9261 rows is the sum over 21 tiles of the sums over each tile's 441 rows — the one law
  (commutativity and associativity of `+`) that joins a tiled accumulation to a whole sum.
-/
import Idealize.ShloMosaic.PureOps.Ideal
import Idealize.ShloMosaic.PureOps.Ideal.Laws
import Idealize.ShloMosaic.Lib.ValueIdx

noncomputable section

namespace PushPull

open Idealize.ShloMosaic

/-- `+0.0`. -/
abbrev cZero : EReal := Ideal.ofBits .f32 0x00000000#32
/-- `1.0`. -/
abbrev cOne : EReal := Ideal.ofBits .f32 0x3F800000#32
/-- `2.0`. -/
abbrev cTwo : EReal := Ideal.ofBits .f32 0x40000000#32
/-- The soft assignment's bandwidth, the f32 nearest `2e-8`. -/
abbrev cBand : EReal := Ideal.ofBits .f32 0x32ABCC77#32
/-- The guard in the soft assignment's denominator, the f32 nearest `1e-10`. -/
abbrev cEpsW : EReal := Ideal.ofBits .f32 0x2EDBE6FF#32
/-- The guard in the push term's denominator, the f32 nearest `1e-15`. -/
abbrev cEpsP : EReal := Ideal.ofBits .f32 0x26901D7D#32

section Row
variable (e : Fin 30 → Fin 4 → EReal) (c : Fin 10 → Fin 4 → EReal)

/-- Squared distance of embedding `t` to centroid `k`, by the expanded formula. -/
def dist2 (t : Fin 30) (k : Fin 10) : EReal :=
  ((∑ f : Fin 4, e t f * e t f) + (∑ f : Fin 4, c k f * c k f)) - cTwo * (∑ f : Fin 4, e t f * c k f)

/-- The unnormalised soft assignment. -/
def rawW (t : Fin 30) (k : Fin 10) : EReal := Ideal.exp (Ideal.div (-(dist2 e c t k)) cBand)

/-- The soft assignment. -/
def softW (t : Fin 30) (k : Fin 10) : EReal := Ideal.div (rawW e c t k) ((∑ k' : Fin 10, rawW e c t k') + cEpsW)

/-- The soft centroid of embedding `t`. -/
def softC (t : Fin 30) (f : Fin 4) : EReal := ∑ k : Fin 10, softW e c t k * c k f

/-- Squared distance of embedding `t` to its soft centroid. -/
def pullAt (t : Fin 30) : EReal := ∑ f : Fin 4, (e t f - softC e c t f) * (e t f - softC e c t f)

/-- Squared norm of the soft centroid of `t`. -/
def normC (t : Fin 30) : EReal := ∑ f : Fin 4, softC e c t f * softC e c t f

/-- The repulsion between the soft centroids of `t` and `s`. -/
def pushAt (t s : Fin 30) : EReal :=
  Ideal.div cOne (cEpsP + Ideal.div
    (max ((normC e c t + normC e c s) - cTwo * (∑ f : Fin 4, softC e c t f * softC e c s f)) cZero) cTwo)

/-- The row's pull term. -/
def pullRow : EReal := ∑ t : Fin 30, pullAt e c t

/-- The row's push term. -/
def pushRow : EReal := ∑ t : Fin 30, ∑ s : Fin 30, pushAt e c t s

end Row

/-- Zero minus `x`, with the zero spelt as the f32 word, is `−x`. -/
theorem zero_word_sub (x : EReal) : cZero - x = -x := by
  show Ideal.ofBits .f32 0x00000000#32 - x = -x
  rw [Ideal.ofBits_zero_f32, zero_sub]

/-- The zero word plus `x` is `x`. -/
theorem zero_word_add (x : EReal) : cZero + x = x := by
  show Ideal.ofBits .f32 0x00000000#32 + x = x
  rw [Ideal.ofBits_zero_f32, zero_add]

/-- A sum over 9261 rows, tile by tile: 21 tiles of 441 rows, row `n` of tile `j` being row `441 j + n`. -/
theorem sum_tiles {M : Type*} [AddCommMonoid M] (g : Fin 9261 → M) :
    ∑ N : Fin 9261, g N = ∑ j : Fin 21, ∑ n : Fin 441, g ⟨441 * j.val + n.val, by omega⟩ := by
  have h := Equiv.sum_comp (finProdFinEquiv (m := 21) (n := 441)) (g : Fin (21 * 441) → M)
  refine h.symm.trans ?_
  rw [Fintype.sum_prod_type]
  refine Finset.sum_congr rfl fun j _ => Finset.sum_congr rfl fun n _ => congrArg g (Fin.ext ?_)
  show n.val + 441 * j.val = 441 * j.val + n.val
  omega

/-! ## Levels: the rows of one level, and the whole result -/

section Levels
open Idealize.ShloMosaic.ValueIdx

variable (E : (⟨4, ![16, 9261, 30, 4]⟩ : Shape).Idx → EReal) (C : (⟨4, ![16, 9261, 10, 4]⟩ : Shape).Idx → EReal)

/-- Row `N` of level `l` of the gathered embeddings [16, 9261, 30, 4]. -/
def embRow (l : Fin 16) (N : Fin 9261) : Fin 30 → Fin 4 → EReal := fun t f => E (ix4 l N t f)
/-- Row `N` of level `l` of the gathered centroids [16, 9261, 10, 4]. -/
def cenRow (l : Fin 16) (N : Fin 9261) : Fin 10 → Fin 4 → EReal := fun k f => C (ix4 l N k f)

/-- The push sum of a level: the zero word plus the sum of its rows' push terms. -/
def pushLevel (l : Fin 16) : EReal := cZero + ∑ N : Fin 9261, pushRow (embRow E l N) (cenRow C l N)
/-- The pull sum of a level. -/
def pullLevel (l : Fin 16) : EReal := cZero + ∑ N : Fin 9261, pullRow (embRow E l N) (cenRow C l N)

/-- The number of push terms of a level, `9261 · 30 · 30`, an f32 exactly. -/
abbrev cPushN : EReal := Ideal.ofBits .f32 0x4AFE5C68#32
/-- The number of pull terms of a level, `9261 · 30`, an f32 exactly. -/
abbrev cPullN : EReal := Ideal.ofBits .f32 0x4887A8C0#32

/-- The result: the levels' mean push terms, summed, plus the levels' mean pull terms, summed. -/
def total : EReal :=
  (cZero + ∑ i : (⟨1, ![16]⟩ : Shape).Idx, Ideal.div (pushLevel E C ⟨(i 0).val, (i 0).isLt⟩) cPushN)
    + (cZero + ∑ i : (⟨1, ![16]⟩ : Shape).Idx, Ideal.div (pullLevel E C ⟨(i 0).val, (i 0).isLt⟩) cPullN)

end Levels

end PushPull
-- ==== Proof.KernelBody.lean ====
/-
  The kernel body's arithmetic, read index by index over the extended reals.

  The body works on a tile of 441 rows: `v4` the tile's embeddings [441, 30, 4], `v6` its centroids [441, 10, 4].
  Each intermediate array of the body is restated here as a named function of `v4` and `v6` (equal to the generated
  skeleton's payloads by unfolding), and read at an index: entry `(n, t, k)` of the distance array is `dist2` of row `n`,
  of the soft assignment `softW`, entry `(n, t, f)` of the soft centroids `softC`; the tile's pull sum is
  `∑ₙ pullRow` and its push sum `∑ₙ pushRow` of the rows.  A keepdims sum, a reshape that inserts a unit axis and a
  broadcast along it read one entry of their operand; a sum over an axis is a finite sum over that coordinate.
  Lane 0 of an accumulator block after the body is what it held plus the tile's sum.
-/
import proofs.«160341_j88673894793881_2_alg».proof.Proof.Gen.KernelIdeal.Skeleton
import proofs.«160341_j88673894793881_2_alg».proof.Proof.LibLayout
import proofs.«160341_j88673894793881_2_alg».proof.Proof.RowMath
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx PushPull PushPull.Layout

theorem sub_congr {a a' b b' : EReal} (h1 : a = a') (h2 : b = b') : a - b = a' - b' := by rw [h1, h2]
theorem add_congr {a a' b b' : EReal} (h1 : a = a') (h2 : b = b') : a + b = a' + b' := by rw [h1, h2]
theorem mul_congr {a a' b b' : EReal} (h1 : a = a') (h2 : b = b') : a * b = a' * b' := by rw [h1, h2]
theorem div_congr {a a' b b' : EReal} (h1 : a = a') (h2 : b = b') : Ideal.div a b = Ideal.div a' b' := by rw [h1, h2]
theorem max_congr {a a' b b' : EReal} (h1 : a = a') (h2 : b = b') : max a b = max a' b' := by rw [h1, h2]

/-- Row `n` of a tile's embeddings. -/
def rowE (v4 : FVec Ideal S441x30x4 .f32) (n : Fin 441) : Fin 30 → Fin 4 → EReal := fun t f => v4 (ix3 n t f)
/-- Row `n` of a tile's centroids. -/
def rowC (v6 : FVec Ideal S441x10x4 .f32) (n : Fin 441) : Fin 10 → Fin 4 → EReal := fun k f => v6 (ix3 n k f)

section Tile
variable (v4 : FVec Ideal S441x30x4 .f32) (v6 : FVec Ideal S441x10x4 .f32)

/-- The tile's squared distances [441, 30, 10]. -/
def tDist : FVec Ideal S441x30x10 .f32 :=
  subf
    (addf
      (broadcastTo S441x30x10 (shapeCast S441x30x1 (multiReduction .add [2] S441x30 (mulf v4 v4) 0x00000000#32 reduces_S441x30x4_S441x30 (.inl rfl) rfl) shapeCasts_S441x30_S441x30x1) broadcasts_S441x30x1_S441x30x10)
      (broadcastTo S441x30x10 (shapeCast S441x1x10 (multiReduction .add [2] S441x10 (mulf v6 v6) 0x00000000#32 reduces_S441x10x4_S441x10 (.inl rfl) rfl) shapeCasts_S441x10_S441x1x10) broadcasts_S441x1x10_S441x30x10))
    (mulf (broadcast S441x30x10 (Scalar.ofBits .f32 0x40000000#32))
      (multiReduction .add [3] S441x30x10
        (mulf (broadcastTo S441x30x10x4 (shapeCast S441x30x1x4 v4 shapeCasts_S441x30x4_S441x30x1x4) broadcasts_S441x30x1x4_S441x30x10x4)
          (broadcastTo S441x30x10x4 (shapeCast S441x1x10x4 v6 shapeCasts_S441x10x4_S441x1x10x4) broadcasts_S441x1x10x4_S441x30x10x4))
        0x00000000#32 reduces_S441x30x10x4_S441x30x10 (.inl rfl) rfl))

theorem tDist_apply (n : Fin 441) (t : Fin 30) (k : Fin 10) :
    tDist v4 v6 (ix3 n t k) = dist2 (rowE v4 n) (rowC v6 n) t k := by
  unfold tDist dist2
  refine (subf_apply _ _ _).trans (sub_congr ((addf_apply _ _ _).trans (add_congr ?_ ?_))
    ((mulf_apply _ _ _).trans (mul_congr rfl ?_)))
  · refine (bcast_ab1 _ _ n t k).trans ((cast_ab_ab1 _ _ n t 0).trans ((sum_abc_2 _ _ _ _ _ n t).trans ?_))
    rfl
  · refine (bcast_a1b _ _ n t k).trans ((cast_ab_a1b _ _ n 0 k).trans ((sum_abc_2 _ _ _ _ _ n k).trans ?_))
    rfl
  · refine (sum_abcd_3 _ _ _ _ _ n t k).trans (Finset.sum_congr rfl fun f _ => ?_)
    refine (mulf_apply _ _ _).trans (mul_congr ?_ ?_)
    · exact (bcast_ab1c _ _ n t k f).trans (cast_abc_ab1c _ _ n t 0 f)
    · exact (bcast_a1bc _ _ n t k f).trans (cast_abc_a1bc _ _ n 0 k f)

/-- The unnormalised soft assignments [441, 30, 10]. -/
def tRaw : FVec Ideal S441x30x10 .f32 :=
  exp (divf (subf (broadcast S441x30x10 (Scalar.ofBits .f32 0x00000000#32)) (tDist v4 v6))
    (broadcast S441x30x10 (Scalar.ofBits .f32 0x32ABCC77#32)))

theorem tRaw_apply (n : Fin 441) (t : Fin 30) (k : Fin 10) :
    tRaw v4 v6 (ix3 n t k) = rawW (rowE v4 n) (rowC v6 n) t k := by
  unfold tRaw rawW
  show Ideal.exp (Ideal.div (cZero - tDist v4 v6 (ix3 n t k)) cBand) = _
  rw [zero_word_sub, tDist_apply]

/-- The soft assignments [441, 30, 10]. -/
def tW : FVec Ideal S441x30x10 .f32 :=
  divf (tRaw v4 v6)
    (broadcastTo S441x30x10
      (addf (shapeCast S441x30x1 (multiReduction .add [2] S441x30 (tRaw v4 v6) 0x00000000#32 reduces_S441x30x10_S441x30 (.inl rfl) rfl) shapeCasts_S441x30_S441x30x1)
        (broadcast S441x30x1 (Scalar.ofBits .f32 0x2EDBE6FF#32)))
      broadcasts_S441x30x1_S441x30x10)

theorem tW_apply (n : Fin 441) (t : Fin 30) (k : Fin 10) :
    tW v4 v6 (ix3 n t k) = softW (rowE v4 n) (rowC v6 n) t k := by
  unfold tW softW
  refine (divf_apply _ _ _).trans (div_congr (tRaw_apply v4 v6 n t k) ?_)
  refine (bcast_ab1 _ _ n t k).trans ((addf_apply _ _ _).trans (add_congr ?_ rfl))
  exact (cast_ab_ab1 _ _ n t 0).trans ((sum_abc_2 _ _ _ _ _ n t).trans
    (Finset.sum_congr rfl fun k' _ => tRaw_apply v4 v6 n t k'))

/-- The soft centroids [441, 30, 4], from the soft assignments `w`. -/
def tSC (w : FVec Ideal S441x30x10 .f32) : FVec Ideal S441x30x4 .f32 :=
  multiReduction .add [2] S441x30x4
    (mulf (broadcastTo S441x30x10x4 (shapeCast S441x30x10x1 w shapeCasts_S441x30x10_S441x30x10x1) broadcasts_S441x30x10x1_S441x30x10x4)
      (broadcastTo S441x30x10x4 (shapeCast S441x1x10x4 v6 shapeCasts_S441x10x4_S441x1x10x4) broadcasts_S441x1x10x4_S441x30x10x4))
    0x00000000#32 reduces_S441x30x10x4_S441x30x4 (.inl rfl) rfl

theorem tSC_apply (n : Fin 441) (t : Fin 30) (f : Fin 4) :
    tSC v6 (tW v4 v6) (ix3 n t f) = softC (rowE v4 n) (rowC v6 n) t f := by
  unfold tSC softC
  refine (sum_abcd_2 _ _ _ _ _ n t f).trans (Finset.sum_congr rfl fun k _ => ?_)
  refine (mulf_apply _ _ _).trans (mul_congr ?_ ?_)
  · exact (bcast_abc1 _ _ n t k f).trans ((cast_abc_abc1 _ _ n t k 0).trans (tW_apply v4 v6 n t k))
  · exact (bcast_a1bc _ _ n t k f).trans (cast_abc_a1bc _ _ n 0 k f)

end Tile

section Sums
variable (v4 : FVec Ideal S441x30x4 .f32) (sc : FVec Ideal S441x30x4 .f32)
variable (e : Fin 441 → Fin 30 → Fin 4 → EReal) (c : Fin 441 → Fin 10 → Fin 4 → EReal)

/-- The tile's pull sum [1, 1], from its embeddings and soft centroids. -/
def tPull : FVec Ideal S1x1 .f32 :=
  shapeCast S1x1
    (multiReduction .add [0] S1
      (shapeCast S441x1
        (multiReduction .add [1] S441
          (multiReduction .add [2] S441x30 (mulf (subf v4 sc) (subf v4 sc)) 0x00000000#32 reduces_S441x30x4_S441x30 (.inl rfl) rfl)
          0x00000000#32 reduces_S441x30_S441 (.inl rfl) rfl)
        shapeCasts_S441_S441x1)
      0x00000000#32 reduces_S441x1_S1 (.inl rfl) rfl)
    shapeCasts_S1_S1x1

theorem tPull_apply (hv : ∀ n t f, v4 (ix3 n t f) = e n t f) (hsc : ∀ n t f, sc (ix3 n t f) = softC (e n) (c n) t f)
    (u u' : Fin 1) : tPull v4 sc (ix2 u u') = ∑ n : Fin 441, pullRow (e n) (c n) := by
  unfold tPull pullRow pullAt
  refine (cast_a_a1 _ _ u u').trans ((sum_ab_0 _ _ _ _ _ u).trans (Finset.sum_congr rfl fun n _ => ?_))
  refine (cast_a_a1 _ _ n u).trans ((sum_ab_1 _ _ _ _ _ n).trans (Finset.sum_congr rfl fun t _ => ?_))
  refine (sum_abc_2 _ _ _ _ _ n t).trans (Finset.sum_congr rfl fun f _ => ?_)
  show (v4 (ix3 n t f) - sc (ix3 n t f)) * (v4 (ix3 n t f) - sc (ix3 n t f)) = _
  rw [hsc, hv]

/-- Squared norms of the soft centroids [441, 30]. -/
def tNorm : FVec Ideal S441x30 .f32 :=
  multiReduction .add [2] S441x30 (mulf sc sc) 0x00000000#32 reduces_S441x30x4_S441x30 (.inl rfl) rfl

theorem tNorm_apply (hsc : ∀ n t f, sc (ix3 n t f) = softC (e n) (c n) t f) (n : Fin 441) (t : Fin 30) :
    tNorm sc (ix2 n t) = normC (e n) (c n) t := by
  unfold tNorm normC
  refine (sum_abc_2 _ _ _ _ _ n t).trans (Finset.sum_congr rfl fun f _ => ?_)
  show sc (ix3 n t f) * sc (ix3 n t f) = _
  rw [hsc]

/-- Inner products of the soft centroids of a row [441, 30, 30]. -/
def tCross : FVec Ideal S441x30x30 .f32 :=
  multiReduction .add [3] S441x30x30
    (mulf (broadcastTo S441x30x30x4 (shapeCast S441x30x1x4 sc shapeCasts_S441x30x4_S441x30x1x4) broadcasts_S441x30x1x4_S441x30x30x4)
      (broadcastTo S441x30x30x4 (shapeCast S441x1x30x4 sc shapeCasts_S441x30x4_S441x1x30x4) broadcasts_S441x1x30x4_S441x30x30x4))
    0x00000000#32 reduces_S441x30x30x4_S441x30x30 (.inl rfl) rfl

theorem tCross_apply (hsc : ∀ n t f, sc (ix3 n t f) = softC (e n) (c n) t f) (n : Fin 441) (t s : Fin 30) :
    tCross sc (ix3 n t s) = ∑ f : Fin 4, softC (e n) (c n) t f * softC (e n) (c n) s f := by
  unfold tCross
  refine (sum_abcd_3 _ _ _ _ _ n t s).trans (Finset.sum_congr rfl fun f _ => ?_)
  refine (mulf_apply _ _ _).trans (mul_congr ?_ ?_)
  · exact (bcast_ab1c _ _ n t s f).trans ((cast_abc_ab1c _ _ n t 0 f).trans (hsc n t f))
  · exact (bcast_a1bc _ _ n t s f).trans ((cast_abc_a1bc _ _ n 0 s f).trans (hsc n s f))

/-- The repulsions of a tile [441, 30, 30]. -/
def tPushAt : FVec Ideal S441x30x30 .f32 :=
  divf (broadcast S441x30x30 (Scalar.ofBits .f32 0x3F800000#32))
    (addf (broadcast S441x30x30 (Scalar.ofBits .f32 0x26901D7D#32))
      (divf
        (maximumf
          (subf
            (addf (broadcastTo S441x30x30 (shapeCast S441x30x1 (tNorm sc) shapeCasts_S441x30_S441x30x1) broadcasts_S441x30x1_S441x30x30)
              (broadcastTo S441x30x30 (shapeCast S441x1x30 (tNorm sc) shapeCasts_S441x30_S441x1x30) broadcasts_S441x1x30_S441x30x30))
            (mulf (broadcast S441x30x30 (Scalar.ofBits .f32 0x40000000#32)) (tCross sc)))
          (broadcast S441x30x30 (Scalar.ofBits .f32 0x00000000#32)))
        (broadcast S441x30x30 (Scalar.ofBits .f32 0x40000000#32))))

theorem tPushAt_apply (hsc : ∀ n t f, sc (ix3 n t f) = softC (e n) (c n) t f) (n : Fin 441) (t s : Fin 30) :
    tPushAt sc (ix3 n t s) = pushAt (e n) (c n) t s := by
  unfold tPushAt pushAt
  refine (divf_apply _ _ _).trans (div_congr rfl ((addf_apply _ _ _).trans (add_congr rfl
    ((divf_apply _ _ _).trans (div_congr ((maximumf_apply _ _ _).trans (max_congr ?_ rfl)) rfl)))))
  refine (subf_apply _ _ _).trans (sub_congr ((addf_apply _ _ _).trans (add_congr ?_ ?_))
    ((mulf_apply _ _ _).trans (mul_congr rfl (tCross_apply sc e c hsc n t s))))
  · exact (bcast_ab1 _ _ n t s).trans ((cast_ab_ab1 _ _ n t 0).trans (tNorm_apply sc e c hsc n t))
  · exact (bcast_a1b _ _ n t s).trans ((cast_ab_a1b _ _ n 0 s).trans (tNorm_apply sc e c hsc n s))

/-- The tile's push sum [1, 1]. -/
def tPush : FVec Ideal S1x1 .f32 :=
  shapeCast S1x1
    (multiReduction .add [0] S1
      (shapeCast S441x1
        (multiReduction .add [1] S441
          (multiReduction .add [2] S441x30 (tPushAt sc) 0x00000000#32 reduces_S441x30x30_S441x30 (.inl rfl) rfl)
          0x00000000#32 reduces_S441x30_S441 (.inl rfl) rfl)
        shapeCasts_S441_S441x1)
      0x00000000#32 reduces_S441x1_S1 (.inl rfl) rfl)
    shapeCasts_S1_S1x1

theorem tPush_apply (hsc : ∀ n t f, sc (ix3 n t f) = softC (e n) (c n) t f) (u u' : Fin 1) :
    tPush sc (ix2 u u') = ∑ n : Fin 441, pushRow (e n) (c n) := by
  unfold tPush pushRow
  refine (cast_a_a1 _ _ u u').trans ((sum_ab_0 _ _ _ _ _ u).trans (Finset.sum_congr rfl fun n _ => ?_))
  refine (cast_a_a1 _ _ n u).trans ((sum_ab_1 _ _ _ _ _ n).trans (Finset.sum_congr rfl fun t _ => ?_))
  exact (sum_abc_2 _ _ _ _ _ n t).trans (Finset.sum_congr rfl fun s _ => tPushAt_apply sc e c hsc n t s)

end Sums

/-! ## The payloads are these functions -/

section Payloads
variable (x0 : Vec Ideal S1x441x30x4 .f32) (x1 : Vec Ideal S1x441x10x4 .f32)

theorem pay5_apply (n : Fin 441) (t : Fin 30) (f : Fin 4) : k0_pay5 x0 (ix3 n t f) = x0 (ix4 (0 : Fin 1) n t f) :=
  shapeCast_1abc_abc_apply _ _ n t f

theorem pay6_apply (n : Fin 441) (k : Fin 10) (f : Fin 4) : k0_pay6 x1 (ix3 n k f) = x1 (ix4 (0 : Fin 1) n k f) :=
  shapeCast_1abc_abc_apply _ _ n k f

theorem pay9_eq : k0_pay9 (k0_pay7 x1) (k0_pay8 x0 x1) = tSC (k0_pay6 x1) (tW (k0_pay5 x0) (k0_pay6 x1)) := rfl

theorem pay10_eq : k0_pay10 (k0_pay5 x0) (k0_pay7 x1) (k0_pay8 x0 x1)
    = tPull (k0_pay5 x0) (k0_pay9 (k0_pay7 x1) (k0_pay8 x0 x1)) := rfl

theorem pay11_eq : k0_pay11 (k0_pay7 x1) (k0_pay8 x0 x1) = tPush (k0_pay9 (k0_pay7 x1) (k0_pay8 x0 x1)) := rfl

/-- Row `n` of the embeddings block [1, 441, 30, 4]. -/
def blockE (n : Fin 441) : Fin 30 → Fin 4 → EReal := fun t f => x0 (ix4 (0 : Fin 1) n t f)
/-- Row `n` of the centroids block [1, 441, 10, 4]. -/
def blockC (n : Fin 441) : Fin 10 → Fin 4 → EReal := fun k f => x1 (ix4 (0 : Fin 1) n k f)

theorem rowE_eq (n : Fin 441) : rowE (k0_pay5 x0) n = blockE x0 n :=
  funext fun t => funext fun f => pay5_apply x0 n t f
theorem rowC_eq (n : Fin 441) : rowC (k0_pay6 x1) n = blockC x1 n :=
  funext fun k => funext fun f => pay6_apply x1 n k f

theorem sc_apply (n : Fin 441) (t : Fin 30) (f : Fin 4) :
    k0_pay9 (k0_pay7 x1) (k0_pay8 x0 x1) (ix3 n t f) = softC (blockE x0 n) (blockC x1 n) t f := by
  rw [pay9_eq, tSC_apply, rowE_eq, rowC_eq]

/-- The tile's pull sum is the sum of its rows' pull terms. -/
theorem pullTile_apply (u u' : Fin 1) :
    k0_pay10 (k0_pay5 x0) (k0_pay7 x1) (k0_pay8 x0 x1) (ix2 u u') = ∑ n : Fin 441, pullRow (blockE x0 n) (blockC x1 n) := by
  rw [pay10_eq]
  exact tPull_apply _ _ (blockE x0) (blockC x1) (pay5_apply x0) (sc_apply x0 x1) u u'

/-- The tile's push sum is the sum of its rows' push terms. -/
theorem pushTile_apply (u u' : Fin 1) :
    k0_pay11 (k0_pay7 x1) (k0_pay8 x0 x1) (ix2 u u') = ∑ n : Fin 441, pushRow (blockE x0 n) (blockC x1 n) := by
  rw [pay11_eq]
  exact tPush_apply _ (blockE x0) (blockC x1) (sc_apply x0 x1) u u'

end Payloads

/-! ## Lane 0 of an accumulator block after the body -/

/-- Lane 0 of the mask `lane == 0`. -/
theorem lane0_mask : (cmpi .eq (iota .tc S1x128 32 [1] iota_S1x128_d1_w32) (broadcast S1x128 (0#32 : BitVec 32)) : IVec S1x128 1)
    (ix2 (0 : Fin 1) (0 : Fin 128)) = 1#1 := by
  show IntOp.cmpi .eq (iota .tc S1x128 32 [1] iota_S1x128_d1_w32 (ix2 (0 : Fin 1) (0 : Fin 128))) (0#32 : BitVec 32) = 1#1
  rw [iota_single_apply]
  rfl

theorem pay1_lane0 (v77 : FVec Ideal S1x1 .f32) (v79 : FVec Ideal S1x128 .f32) :
    k0_pay1 v77 v79 (ix3 (0 : Fin 1) (0 : Fin 1) (0 : Fin 128)) = v79 (ix2 (0 : Fin 1) (0 : Fin 128)) + v77 (ix2 (0 : Fin 1) (0 : Fin 1)) := by
  unfold k0_pay1
  refine (shapeCast_ab_1ab_apply _ _ 0 0 0).trans ((addf_apply _ _ _).trans (add_congr rfl ?_))
  refine (select_apply _ _ _ _).trans ?_
  rw [lane0_mask, select_one]
  exact (bcast_11 _ _ 0 0).trans (congrFun (shapeCast_self _ _) _)

theorem pay2_lane0 (v48 : FVec Ideal S1x1 .f32) (v80 : Vec Ideal S1x1x128 .f32) :
    k0_pay2 v48 v80 (ix3 (0 : Fin 1) (0 : Fin 1) (0 : Fin 128)) = v80 (ix3 (0 : Fin 1) (0 : Fin 1) (0 : Fin 128)) + v48 (ix2 (0 : Fin 1) (0 : Fin 1)) := by
  unfold k0_pay2
  refine (shapeCast_ab_1ab_apply _ _ 0 0 0).trans ((addf_apply _ _ _).trans (add_congr ?_ ?_))
  · exact shapeCast_1ab_ab_apply _ _ 0 0
  · refine (select_apply _ _ _ _).trans ?_
    rw [lane0_mask, select_one]
    exact (bcast_11 _ _ 0 0).trans (congrFun (shapeCast_self _ _) _)

theorem pay12_lane0 (v78 : Vec Ideal S1x1x128 .f32) :
    k0_pay12 v78 (ix2 (0 : Fin 1) (0 : Fin 128)) = v78 (ix3 (0 : Fin 1) (0 : Fin 1) (0 : Fin 128)) :=
  shapeCast_1ab_ab_apply _ _ 0 0

theorem pay3_lane0 : k0_pay3 (F := Ideal) (ix3 (0 : Fin 1) (0 : Fin 1) (0 : Fin 128)) = cZero := by
  unfold k0_pay3
  refine (shapeCast_ab_1ab_apply _ _ 0 0 0).trans ?_
  rfl

theorem pay4_lane0 : k0_pay4 (F := Ideal) (ix3 (0 : Fin 1) (0 : Fin 1) (0 : Fin 128)) = cZero := by
  unfold k0_pay4
  refine (shapeCast_ab_1ab_apply _ _ 0 0 0).trans ?_
  rfl

end Cert.KernelIdeal.Body

end
-- ==== Proof.KernelAccum.lean ====
/-
  The two accumulator arrays after the region, at the entries the host reads.

  The grid is 16 levels by 21 tiles; point `21 l + j` is tile `j` of level `l`, whose input blocks are rows
  `441 j … 441 j + 440` of level `l` of the gathered embeddings and centroids.  Lane 0 of an accumulator block after
  point `21 l + j` is the zero word plus the sums of tiles `0 … j` of the level (induction on `j`); the block is
  written back after tile 20, to row `l` of its [16, 1, 128] array.  So entry `(l, 0, 0)` of the first array ends at
  the level's push sum and of the second at its pull sum: a sum over the 9261 rows taken tile by tile.
-/
import proofs.«160341_j88673894793881_2_alg».proof.Proof.KernelIdealCases
import proofs.«160341_j88673894793881_2_alg».proof.Proof.KernelBody
import Idealize.ShloMosaic.Lib.Pipeline.Value

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx PushPull

variable (m : (ℓ : Loc nD τ sig) → Buf (Elt Ideal) ℓ) (c : Dev nD)

/-- Lane 0 of an accumulator block. -/
abbrev i000 : S1x1x128.Idx := ix3 (0 : Fin 1) (0 : Fin 1) (0 : Fin 128)

/-- The printed index maps, decided over the grid: the input blocks move with (level, tile), the accumulators' with
    the level. -/
theorem idx_facts : ∀ t : Fin cfg0.N,
    win0_0.index t (0 : Fin 4) = t.val / 21 ∧ win0_0.index t (1 : Fin 4) = t.val % 21
    ∧ win0_0.index t (2 : Fin 4) = 0 ∧ win0_0.index t (3 : Fin 4) = 0
    ∧ win0_1.index t (0 : Fin 4) = t.val / 21 ∧ win0_1.index t (1 : Fin 4) = t.val % 21
    ∧ win0_1.index t (2 : Fin 4) = 0 ∧ win0_1.index t (3 : Fin 4) = 0
    ∧ win0_2.index t (0 : Fin 3) = t.val / 21 ∧ win0_2.index t (1 : Fin 3) = 0 ∧ win0_2.index t (2 : Fin 3) = 0
    ∧ win0_3.index t (0 : Fin 3) = t.val / 21 ∧ win0_3.index t (1 : Fin 3) = 0 ∧ win0_3.index t (2 : Fin 3) = 0 :=
  (by decide +kernel : ∀ t : Fin grid0.N, _)

/-- Row `n` of the embeddings block at point `t` is row `441 (t mod 21) + n` of level `t / 21`. -/
theorem blockE_iblk (t : Fin cfg0.N) (n : Fin 441) (l : Fin 16) (N : Fin 9261) (hl : t.val / 21 = l.val)
    (hN : 441 * (t.val % 21) + n.val = N.val) :
    Body.blockE (iblk m c 0 t) n = embRow (V m c main_v6) l N := by
  obtain ⟨e0, e1, e2, e3, -⟩ := idx_facts t
  funext s f
  unfold Body.blockE embRow iblk
  rw [View.read_apply]
  show V m c main_v6 (((cfg0.win 0).blk t).view.emb (ix4 (0 : Fin 1) n s f)) = V m c main_v6 (ix4 l N s f)
  refine congrArg (V m c main_v6) (funext fun a => Fin.ext ?_)
  match a with
  | ⟨0, _⟩ => show win0_0.index t (0 : Fin 4) * 1 + 1 * (0 : ℕ) = l.val; omega
  | ⟨1, _⟩ => show win0_0.index t (1 : Fin 4) * 441 + 1 * n.val = N.val; omega
  | ⟨2, _⟩ => show win0_0.index t (2 : Fin 4) * 30 + 1 * s.val = s.val; omega
  | ⟨3, _⟩ => show win0_0.index t (3 : Fin 4) * 4 + 1 * f.val = f.val; omega

/-- Row `n` of the centroids block at point `t` likewise. -/
theorem blockC_iblk (t : Fin cfg0.N) (n : Fin 441) (l : Fin 16) (N : Fin 9261) (hl : t.val / 21 = l.val)
    (hN : 441 * (t.val % 21) + n.val = N.val) :
    Body.blockC (iblk m c 1 t) n = cenRow (V m c main_v15) l N := by
  obtain ⟨-, -, -, -, e0, e1, e2, e3, -⟩ := idx_facts t
  funext k f
  unfold Body.blockC cenRow iblk
  rw [View.read_apply]
  show V m c main_v15 (((cfg0.win 1).blk t).view.emb (ix4 (0 : Fin 1) n k f)) = V m c main_v15 (ix4 l N k f)
  refine congrArg (V m c main_v15) (funext fun a => Fin.ext ?_)
  match a with
  | ⟨0, _⟩ => show win0_1.index t (0 : Fin 4) * 1 + 1 * (0 : ℕ) = l.val; omega
  | ⟨1, _⟩ => show win0_1.index t (1 : Fin 4) * 441 + 1 * n.val = N.val; omega
  | ⟨2, _⟩ => show win0_1.index t (2 : Fin 4) * 10 + 1 * k.val = k.val; omega
  | ⟨3, _⟩ => show win0_1.index t (3 : Fin 4) * 4 + 1 * f.val = f.val; omega

/-- The push sum of the tile at point `n` (zero past the grid: never used). -/
def pushPt (n : ℕ) : EReal :=
  if h : n < cfg0.N then Cases.pushTile (iblk m c 0 ⟨n, h⟩) (iblk m c 1 ⟨n, h⟩) (ix2 (0 : Fin 1) (0 : Fin 1)) else 0
/-- The pull sum of the tile at point `n`. -/
def pullPt (n : ℕ) : EReal :=
  if h : n < cfg0.N then Cases.pullTile (iblk m c 0 ⟨n, h⟩) (iblk m c 1 ⟨n, h⟩) (ix2 (0 : Fin 1) (0 : Fin 1)) else 0

theorem pushPt_eq (l : Fin 16) (j : Fin 21) :
    pushPt m c (21 * l.val + j.val) = ∑ n : Fin 441, pushRow (embRow (V m c main_v6) l ⟨441 * j.val + n.val, by omega⟩)
      (cenRow (V m c main_v15) l ⟨441 * j.val + n.val, by omega⟩) := by
  have hN : cfg0.N = 336 := N_0
  have ht : 21 * l.val + j.val < cfg0.N := by rw [hN]; omega
  have hd : (21 * l.val + j.val) / 21 = l.val := by omega
  have hm : (21 * l.val + j.val) % 21 = j.val := by omega
  unfold pushPt
  rw [dif_pos ht]
  refine (Body.pushTile_apply (iblk m c 0 ⟨_, ht⟩) (iblk m c 1 ⟨_, ht⟩) 0 0).trans (Finset.sum_congr rfl fun n _ => ?_)
  rw [blockE_iblk m c ⟨_, ht⟩ n l ⟨441 * j.val + n.val, by omega⟩ hd (by show 441 * ((21 * l.val + j.val) % 21) + n.val = 441 * j.val + n.val; rw [hm]),
    blockC_iblk m c ⟨_, ht⟩ n l ⟨441 * j.val + n.val, by omega⟩ hd (by show 441 * ((21 * l.val + j.val) % 21) + n.val = 441 * j.val + n.val; rw [hm])]

theorem pullPt_eq (l : Fin 16) (j : Fin 21) :
    pullPt m c (21 * l.val + j.val) = ∑ n : Fin 441, pullRow (embRow (V m c main_v6) l ⟨441 * j.val + n.val, by omega⟩)
      (cenRow (V m c main_v15) l ⟨441 * j.val + n.val, by omega⟩) := by
  have hN : cfg0.N = 336 := N_0
  have ht : 21 * l.val + j.val < cfg0.N := by rw [hN]; omega
  have hd : (21 * l.val + j.val) / 21 = l.val := by omega
  have hm : (21 * l.val + j.val) % 21 = j.val := by omega
  unfold pullPt
  rw [dif_pos ht]
  refine (Body.pullTile_apply (iblk m c 0 ⟨_, ht⟩) (iblk m c 1 ⟨_, ht⟩) 0 0).trans (Finset.sum_congr rfl fun n _ => ?_)
  rw [blockE_iblk m c ⟨_, ht⟩ n l ⟨441 * j.val + n.val, by omega⟩ hd (by show 441 * ((21 * l.val + j.val) % 21) + n.val = 441 * j.val + n.val; rw [hm]),
    blockC_iblk m c ⟨_, ht⟩ n l ⟨441 * j.val + n.val, by omega⟩ hd (by show 441 * ((21 * l.val + j.val) % 21) + n.val = 441 * j.val + n.val; rw [hm])]

/-- The first tile of a level: lane 0 of each accumulator is the zero word plus the tile's sum. -/
theorem step_A (t : Fin cfg0.N) (h0 : t.val % 21 = 0) :
    (outsAt0 m c t.val t.isLt).1 i000 = cZero + pushPt m c t.val
    ∧ (outsAt0 m c t.val t.isLt).2 i000 = cZero + pullPt m c t.val := by
  rw [outsAt0_A m c t h0]
  dsimp only
  unfold pushPt pullPt
  rw [dif_pos t.isLt, dif_pos t.isLt, Cases.out_A_2, Cases.out_A_3, Body.pay1_lane0, Body.pay2_lane0, Body.pay12_lane0,
    Body.pay3_lane0, Body.pay4_lane0]
  exact ⟨rfl, rfl⟩

/-- A later tile: lane 0 of each accumulator gains the tile's sum. -/
theorem step_B (t : Fin cfg0.N) (h0 : ¬t.val % 21 = 0) :
    (outsAt0 m c t.val t.isLt).1 i000
      = (outsAt0 m c (t.val - 1) (Nat.lt_of_le_of_lt (Nat.sub_le _ _) t.isLt)).1 i000 + pushPt m c t.val
    ∧ (outsAt0 m c t.val t.isLt).2 i000
      = (outsAt0 m c (t.val - 1) (Nat.lt_of_le_of_lt (Nat.sub_le _ _) t.isLt)).2 i000 + pullPt m c t.val := by
  rw [outsAt0_B m c t h0]
  dsimp only
  unfold pushPt pullPt
  rw [dif_pos t.isLt, dif_pos t.isLt, Cases.out_B_2, Cases.out_B_3, Body.pay1_lane0, Body.pay2_lane0, Body.pay12_lane0]
  exact ⟨rfl, rfl⟩

/-- Lane 0 of the accumulators after tile `j` of level `q`: the zero word plus the sums of tiles `0 … j`. -/
theorem acc_eq (q : ℕ) : ∀ (j : ℕ) (hj : j < 21) (h : 21 * q + j < cfg0.N),
    (outsAt0 m c (21 * q + j) h).1 i000 = cZero + ∑ s ∈ Finset.range (j + 1), pushPt m c (21 * q + s)
    ∧ (outsAt0 m c (21 * q + j) h).2 i000 = cZero + ∑ s ∈ Finset.range (j + 1), pullPt m c (21 * q + s)
  | 0, _, h => by
    have hA := step_A m c ⟨21 * q + 0, h⟩ (by show (21 * q + 0) % 21 = 0; omega)
    rw [Finset.sum_range_one, Finset.sum_range_one]
    exact hA
  | j + 1, hj, h => by
    have hne : ¬(21 * q + (j + 1)) % 21 = 0 := by omega
    have hB := step_B m c ⟨21 * q + (j + 1), h⟩ hne
    have ih := acc_eq q j (by omega) (Nat.lt_of_succ_lt h)
    have e1 : (outsAt0 m c (21 * q + (j + 1) - 1) (Nat.lt_of_le_of_lt (Nat.sub_le _ _) h)).1 i000
        = cZero + ∑ s ∈ Finset.range (j + 1), pushPt m c (21 * q + s) := ih.1
    have e2 : (outsAt0 m c (21 * q + (j + 1) - 1) (Nat.lt_of_le_of_lt (Nat.sub_le _ _) h)).2 i000
        = cZero + ∑ s ∈ Finset.range (j + 1), pullPt m c (21 * q + s) := ih.2
    refine ⟨hB.1.trans ?_, hB.2.trans ?_⟩
    · show (outsAt0 m c (21 * q + (j + 1) - 1) (Nat.lt_of_le_of_lt (Nat.sub_le _ _) h)).1 i000 + pushPt m c (21 * q + (j + 1)) = _
      rw [e1, Finset.sum_range_succ _ (j + 1), add_assoc]
    · show (outsAt0 m c (21 * q + (j + 1) - 1) (Nat.lt_of_le_of_lt (Nat.sub_le _ _) h)).2 i000 + pullPt m c (21 * q + (j + 1)) = _
      rw [e2, Finset.sum_range_succ _ (j + 1), add_assoc]

theorem outs_congr {n n' : ℕ} (e : n = n') (h : n < cfg0.N) (h' : n' < cfg0.N) : outsAt0 m c n h = outsAt0 m c n' h' := by
  subst e; rfl

/-- The sum over a level's 21 tiles of the tiles' sums is the sum over the level's 9261 rows. -/
theorem push_tiles (l : Fin 16) :
    cZero + ∑ s ∈ Finset.range 21, pushPt m c (21 * l.val + s) = pushLevel (V m c main_v6) (V m c main_v15) l := by
  unfold pushLevel
  rw [sum_tiles, Finset.sum_range]
  exact congrArg (cZero + ·) (Finset.sum_congr rfl fun j _ => pushPt_eq m c l j)

theorem pull_tiles (l : Fin 16) :
    cZero + ∑ s ∈ Finset.range 21, pullPt m c (21 * l.val + s) = pullLevel (V m c main_v6) (V m c main_v15) l := by
  unfold pullLevel
  rw [sum_tiles, Finset.sum_range]
  exact congrArg (cZero + ·) (Finset.sum_congr rfl fun j _ => pullPt_eq m c l j)

/-- What a write-back of the first accumulator writes at lane 0 of its row. -/
theorem flushed2_lane0 (t : Fin cfg0.N) (hf : (cfg0.win 2).flush t = true) (l : Fin 16) (hl : t.val = 21 * l.val + 20) :
    (dats m 0 c).flushed 2 t i000 = pushLevel (V m c main_v6) (V m c main_v15) l := by
  have e : (dats m 0 c).flushed 2 t = (outsAt0 m c t.val t.isLt).1 := by
    show (cfg0.win 2).cut (grid0.coords t) ((dats m 0 c).after 2 t) = _
    rw [after0_2]
    rfl
  rw [e, outs_congr m c hl t.isLt (hl ▸ t.isLt), (acc_eq m c l.val 20 (by omega) _).1]
  exact push_tiles m c l

theorem flushed3_lane0 (t : Fin cfg0.N) (hf : (cfg0.win 3).flush t = true) (l : Fin 16) (hl : t.val = 21 * l.val + 20) :
    (dats m 0 c).flushed 3 t i000 = pullLevel (V m c main_v6) (V m c main_v15) l := by
  have e : (dats m 0 c).flushed 3 t = (outsAt0 m c t.val t.isLt).2 := by
    show (cfg0.win 3).cut (grid0.coords t) ((dats m 0 c).after 3 t) = _
    rw [after0_3]
    rfl
  rw [e, outs_congr m c hl t.isLt (hl ▸ t.isLt), (acc_eq m c l.val 20 (by omega) _).2]
  exact pull_tiles m c l

end Cert.KernelIdeal.Accum

end
-- ==== Proof.KernelRun.lean ====
/-
  The idealized kernel's run, read: its result is `total` of the gathered arrays.

  The host lines before the region gather the embeddings and centroids (the same lines as the reference's, so the
  arrays the region finds are the reference's gathered arrays of the same arguments).  After the region, entry
  `(l, 0, 0)` of the two accumulator arrays holds level `l`'s push and pull sums: it lies in the block written back
  after the level's last tile and in no later one's row.  The host lines after the region slice lane 0 of each row,
  divide by the number of terms of a level and sum over the levels: `total`.
-/
import proofs.«160341_j88673894793881_2_alg».proof.Proof.KernelAccum
import proofs.«160341_j88673894793881_2_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx Idealize.ShloMosaic.StableHlo PushPull

variable (m : (ℓ : Loc nD τ sig) → Buf (Elt Ideal) ℓ) (ρ : Dev nD → PrngReg) (c : Dev nD)

/-! ## The arrays the region finds -/

/-- The gathered embeddings are the reference's gather of the same arguments. -/
theorem found_emb : (V m c main_v6 : S16x9261x30x4.Idx → EReal)
    = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results
  rfl

/-- The gathered centroids are the reference's gather of the same arguments. -/
theorem found_cen : (V m c main_v15 : S16x9261x10x4.Idx → EReal)
    = Cert.ReferenceIdeal.Read.val_main_v15 (F := Ideal) (m ((c : Thread nD τ).loc main_arg1)) (m ((c : Thread nD τ).loc main_arg3)) := by
  show StableHlo.after hostOps0 (fun b => m (c, b)) (Proc.devRef .tc main_v15) = _
  after_results
  rfl

/-! ## The accumulator arrays after the region -/

/-- Entry `(l, 0, 0)` of the first accumulator array ends at level `l`'s push sum. -/
theorem final2_at (l : Fin 16) :
    (dats m 0 c).arrAt 2 cfg0.N (ix3 l (0 : Fin 1) (0 : Fin 128)) = pushLevel (V m c main_v6) (V m c main_v15) l := by
  have hN : cfg0.N = 336 := N_0
  have htl : 21 * l.val + 20 < cfg0.N := by rw [hN]; omega
  have hf : (cfg0.win 2).flush ⟨21 * l.val + 20, htl⟩ = true :=
    (flush0_2 _).mpr (by show (21 * l.val + 20) % 21 = 20; omega)
  refine (dats m 0 c).arrAt_forall_of_flushed 2
    (fun i v => ∀ l' : Fin 16, i = ix3 l' (0 : Fin 1) (0 : Fin 128) → v = pushLevel (V m c main_v6) (V m c main_v15) l')
    ?_ cfg0.N ⟨21 * l.val + 20, htl⟩ (ix3 l (0 : Fin 1) (0 : Fin 128)) htl hf ?_ l rfl
  · intro t hft y l' hy
    obtain ⟨-, -, -, -, -, -, -, -, e0, e1, e2, -⟩ := Accum.idx_facts t
    have ht : t.val % 21 = 20 := (flush0_2 t).mp hft
    have c0 : win0_2.index t (0 : Fin 3) * 1 + 1 * (y 0).val = l'.val := congrArg (fun i : S16x1x128.Idx => (i 0).val) hy
    have c1 : win0_2.index t (1 : Fin 3) * 1 + 1 * (y 1).val = 0 := congrArg (fun i : S16x1x128.Idx => (i 1).val) hy
    have c2 : win0_2.index t (2 : Fin 3) * 128 + 1 * (y 2).val = 0 := congrArg (fun i : S16x1x128.Idx => (i 2).val) hy
    have y0 : (y 0).val < 1 := (y 0).isLt
    have hy' : y = Accum.i000 := funext fun a => Fin.ext (by
      match a with
      | ⟨0, _⟩ => show (y 0).val = 0; omega
      | ⟨1, _⟩ => show (y 1).val = 0; omega
      | ⟨2, _⟩ => show (y 2).val = 0; omega)
    have hl : t.val = 21 * l'.val + 20 := by omega
    show (dats m 0 c).flushed 2 t y = _
    rw [hy']
    exact Accum.flushed2_lane0 m c t hft l' hl
  · obtain ⟨-, -, -, -, -, -, -, -, e0, e1, e2, -⟩ := Accum.idx_facts ⟨21 * l.val + 20, htl⟩
    have e0' : win0_2.index ⟨21 * l.val + 20, htl⟩ (0 : Fin 3) = (21 * l.val + 20) / 21 := e0
    show ix3 l (0 : Fin 1) (0 : Fin 128) ∈ ((View.whole main_v16_0).slice (win0_2.rect ⟨21 * l.val + 20, htl⟩)).set
    rw [View.set_slice_whole, Rect.mem_set_unit]
    intro a
    match a with
    | ⟨0, _⟩ =>
      show win0_2.index ⟨21 * l.val + 20, htl⟩ (0 : Fin 3) * 1 ≤ l.val ∧ l.val < win0_2.index ⟨21 * l.val + 20, htl⟩ (0 : Fin 3) * 1 + 1
      omega
    | ⟨1, _⟩ =>
      show win0_2.index ⟨21 * l.val + 20, htl⟩ (1 : Fin 3) * 1 ≤ 0 ∧ 0 < win0_2.index ⟨21 * l.val + 20, htl⟩ (1 : Fin 3) * 1 + 1
      omega
    | ⟨2, _⟩ =>
      show win0_2.index ⟨21 * l.val + 20, htl⟩ (2 : Fin 3) * 128 ≤ 0 ∧ 0 < win0_2.index ⟨21 * l.val + 20, htl⟩ (2 : Fin 3) * 128 + 128
      omega

/-- Entry `(l, 0, 0)` of the second accumulator array ends at level `l`'s pull sum. -/
theorem final3_at (l : Fin 16) :
    (dats m 0 c).arrAt 3 cfg0.N (ix3 l (0 : Fin 1) (0 : Fin 128)) = pullLevel (V m c main_v6) (V m c main_v15) l := by
  have hN : cfg0.N = 336 := N_0
  have htl : 21 * l.val + 20 < cfg0.N := by rw [hN]; omega
  have hf : (cfg0.win 3).flush ⟨21 * l.val + 20, htl⟩ = true :=
    (flush0_3 _).mpr (by show (21 * l.val + 20) % 21 = 20; omega)
  refine (dats m 0 c).arrAt_forall_of_flushed 3
    (fun i v => ∀ l' : Fin 16, i = ix3 l' (0 : Fin 1) (0 : Fin 128) → v = pullLevel (V m c main_v6) (V m c main_v15) l')
    ?_ cfg0.N ⟨21 * l.val + 20, htl⟩ (ix3 l (0 : Fin 1) (0 : Fin 128)) htl hf ?_ l rfl
  · intro t hft y l' hy
    obtain ⟨-, -, -, -, -, -, -, -, -, -, -, e0, e1, e2⟩ := Accum.idx_facts t
    have ht : t.val % 21 = 20 := (flush0_3 t).mp hft
    have c0 : win0_3.index t (0 : Fin 3) * 1 + 1 * (y 0).val = l'.val := congrArg (fun i : S16x1x128.Idx => (i 0).val) hy
    have c1 : win0_3.index t (1 : Fin 3) * 1 + 1 * (y 1).val = 0 := congrArg (fun i : S16x1x128.Idx => (i 1).val) hy
    have c2 : win0_3.index t (2 : Fin 3) * 128 + 1 * (y 2).val = 0 := congrArg (fun i : S16x1x128.Idx => (i 2).val) hy
    have y0 : (y 0).val < 1 := (y 0).isLt
    have hy' : y = Accum.i000 := funext fun a => Fin.ext (by
      match a with
      | ⟨0, _⟩ => show (y 0).val = 0; omega
      | ⟨1, _⟩ => show (y 1).val = 0; omega
      | ⟨2, _⟩ => show (y 2).val = 0; omega)
    have hl : t.val = 21 * l'.val + 20 := by omega
    show (dats m 0 c).flushed 3 t y = _
    rw [hy']
    exact Accum.flushed3_lane0 m c t hft l' hl
  · obtain ⟨-, -, -, -, -, -, -, -, -, -, -, e0, e1, e2⟩ := Accum.idx_facts ⟨21 * l.val + 20, htl⟩
    have e0' : win0_3.index ⟨21 * l.val + 20, htl⟩ (0 : Fin 3) = (21 * l.val + 20) / 21 := e0
    show ix3 l (0 : Fin 1) (0 : Fin 128) ∈ ((View.whole main_v16_1).slice (win0_3.rect ⟨21 * l.val + 20, htl⟩)).set
    rw [View.set_slice_whole, Rect.mem_set_unit]
    intro a
    match a with
    | ⟨0, _⟩ =>
      show win0_3.index ⟨21 * l.val + 20, htl⟩ (0 : Fin 3) * 1 ≤ l.val ∧ l.val < win0_3.index ⟨21 * l.val + 20, htl⟩ (0 : Fin 3) * 1 + 1
      omega
    | ⟨1, _⟩ =>
      show win0_3.index ⟨21 * l.val + 20, htl⟩ (1 : Fin 3) * 1 ≤ 0 ∧ 0 < win0_3.index ⟨21 * l.val + 20, htl⟩ (1 : Fin 3) * 1 + 1
      omega
    | ⟨2, _⟩ =>
      show win0_3.index ⟨21 * l.val + 20, htl⟩ (2 : Fin 3) * 128 ≤ 0 ∧ 0 < win0_3.index ⟨21 * l.val + 20, htl⟩ (2 : Fin 3) * 128 + 128
      omega

/-! ## The host lines after the region -/

theorem level_idx (j : S16.Idx) : j = ix1 (⟨(j 0).val, (j 0).isLt⟩ : Fin 16) := by
  funext a; match a with | ⟨0, _⟩ => rfl

/-- Lane 0 of row `l` of an accumulator array, as the host's slice and reshape read it. -/
theorem lane0_read (A : S16x1x128.Idx → EReal) (hs : S16x1x128.Slices ![0, 0, 0] S16x1x1) (hc : S16x1x1.ShapeCasts S16) (l : Fin 16) :
    shapeCast S16 (extractStridedSlice S16x1x1 ![0, 0, 0] A hs) hc (ix1 l) = A (ix3 l (0 : Fin 1) (0 : Fin 128)) := by
  refine (shapeCast_apply _ hc (ix1 l) (ix3 l (0 : Fin 1) (0 : Fin 1)) ?_).trans
    (extractStridedSlice_apply _ A hs (ix3 l (0 : Fin 1) (0 : Fin 1)) (ix3 l (0 : Fin 1) (0 : Fin 128)) fun a => ?_)
  · rw [Shape.rowMajor_val_three, Shape.rowMajor_val_one]
    show (l.val * 1 + 0) * 1 + 0 = l.val
    omega
  · match a with
    | ⟨0, _⟩ => show l.val = 0 + l.val; omega
    | ⟨1, _⟩ => rfl
    | ⟨2, _⟩ => rfl

/-- The mean over a level's terms, summed over the levels, of what lane 0 of the rows holds. -/
theorem mean_sum (A : S16x1x128.Idx → EReal) (P : Fin 16 → EReal) (hA : ∀ l : Fin 16, A (ix3 l (0 : Fin 1) (0 : Fin 128)) = P l)
    (hs : S16x1x128.Slices ![0, 0, 0] S16x1x1) (hc : S16x1x1.ShapeCasts S16) (hb : S_.BroadcastsInDim S16 (![] : Fin 0 → Fin S16.rank))
    (hr : S16.ReducesTo [0] S_) (h0 : 0 < S_.numel) (w : BitVec 32) (i : S_.Idx) :
    Host.reduceAdd (F := Ideal) (Host.divf (shapeCast S16 (extractStridedSlice S16x1x1 ![0, 0, 0] A hs) hc)
        (broadcastInDim S16 ![] hb (constant S_ .f32 w))) (constant S_ .f32 0x00000000#32) hr h0 i
      = cZero + ∑ j : S16.Idx, Ideal.div (P ⟨(j 0).val, (j 0).isLt⟩) (Ideal.ofBits .f32 w) := by
  simp only [Host.reduceAdd, Ideal.hostReduceAdd_def]
  refine (Ideal.hostReduceAdd_total hr (fun b => b.elim0) _ _ i).trans
    (congrArg (cZero + ·) (Finset.sum_congr rfl fun j _ => ?_))
  obtain ⟨L, rfl⟩ : ∃ L : Fin 16, j = ix1 L := ⟨_, level_idx j⟩
  show Ideal.div (shapeCast S16 (extractStridedSlice S16x1x1 ![0, 0, 0] A hs) hc (ix1 L)) (Ideal.ofBits .f32 w) = _
  rw [lane0_read, hA]

/-- The result buffer after the host lines that follow the region. -/
theorem result_value :
    Pipeline.afterTail₀ cfgs (dats m) 0 (V0 m) [hostOps1] c main_v27 = fun _ => total (V m c main_v6) (V m c main_v15) := by
  unfold Pipeline.afterTail₀
  show StableHlo.after hostOps1 _ (Proc.devRef .tc main_v27) = _
  after_results
  funext i
  have e2 : Pipeline.withArrays (cfgs 0).spec c (V0 m c) (fun w => (dats m 0 c).arrAt w (cfgs 0).N) (Proc.devRef .tc main_v16_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v16_1)
      = (dats m 0 c).arrAt 3 cfg0.N := Pipeline.withArrays_arr spec0 launch0.win.arr_inj c _ _ 3
  unfold total
  refine (ValueIdx.addf_apply _ _ _).trans (congrArg₂ (· + ·) ?_ ?_)
  · exact mean_sum _ (pushLevel (V m c main_v6) (V m c main_v15))
      (fun l => (congrFun e2 _).trans (final2_at m c l)) _ _ _ _ _ _ i
  · exact mean_sum _ (pullLevel (V m c main_v6) (V m c main_v15))
      (fun l => (congrFun e3 _).trans (final3_at m c l)) _ _ _ _ _ _ i

/-! ## The run -/

/-- Every weakly fair execution of the idealized kernel's @main terminates with the result at `total` of the gathered
    arrays and the arguments unchanged. -/
theorem run : θ_run defs (onTc (τ := τ) (main (F := Ideal))) ⟨m, fun _ => 0, ρ⟩ fun r => ∀ c : Dev nD,
      r.2.mem ((c.tc : Thread nD τ).loc main_v27) = (fun _ => total (V m c main_v6) (V m c main_v15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference, read index by index over the extended reals.

  Past the two gathers the reference is a chain of elementwise operations, keepdims sums, broadcasts and three batched
  inner products over the gathered embeddings `E` [16, 9261, 30, 4] and centroids `C` [16, 9261, 10, 4].  Read at an
  index, each stage is the row mathematics of row `(l, N)`: the distances `dist2`, the soft assignments `softW`, the
  soft centroids `softC`, the pull and push terms.  A sum over several axes into the level axis is the zero word plus
  the sum over the level's rows and the row's entries; the result is `total E C`.
-/
import proofs.«160341_j88673894793881_2_alg».proof.Proof.Gen.ReferenceIdeal.Read
import proofs.«160341_j88673894793881_2_alg».proof.Proof.RowMath
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx PushPull

theorem sub_congr {a a' b b' : EReal} (h1 : a = a') (h2 : b = b') : a - b = a' - b' := by rw [h1, h2]
theorem add_congr {a a' b b' : EReal} (h1 : a = a') (h2 : b = b') : a + b = a' + b' := by rw [h1, h2]
theorem mul_congr {a a' b b' : EReal} (h1 : a = a') (h2 : b = b') : a * b = a' * b' := by rw [h1, h2]
theorem div_congr {a a' b b' : EReal} (h1 : a = a') (h2 : b = b') : Ideal.div a b = Ideal.div a' b' := by rw [h1, h2]

variable (x0 : (⟨S16x524288x4, .f32⟩ : BufTy).Contents (Elt Ideal)) (x1 : (⟨S10x16x65536x4, .f32⟩ : BufTy).Contents (Elt Ideal))
  (x2 : (⟨S16x9261x30, .i32⟩ : BufTy).Contents (Elt Ideal)) (x3 : (⟨S16x9261, .i32⟩ : BufTy).Contents (Elt Ideal))

/-- The gathered embeddings. -/
abbrev EE : S16x9261x30x4.Idx → EReal := val_main_v6 (F := Ideal) x0 x2
/-- The gathered centroids. -/
abbrev CC : S16x9261x10x4.Idx → EReal := val_main_v15 (F := Ideal) x1 x3

variable (l : Fin 16) (N : Fin 9261)

/-! ## Squared norms and inner products -/

theorem v17_at (t : Fin 30) :
    val_main_v17 (F := Ideal) x0 x2 (ix3 l N t) = ∑ f : Fin 4, EE x0 x2 (ix4 l N t f) * EE x0 x2 (ix4 l N t f) := by
  rw [val_main_v17_apply]
  refine (zero_word_add _).trans (Finset.sum_congr rfl fun f _ => ?_)
  rw [show idx_main_v17 (ix3 l N t) f = ix4 l N t f from by funext a; match a with | ⟨0, _⟩ => rfl | ⟨1, _⟩ => rfl | ⟨2, _⟩ => rfl | ⟨3, _⟩ => rfl]
  rfl

theorem v20_at (k : Fin 10) :
    val_main_v20 (F := Ideal) x1 x3 (ix3 l N k) = ∑ f : Fin 4, CC x1 x3 (ix4 l N k f) * CC x1 x3 (ix4 l N k f) := by
  rw [val_main_v20_apply]
  refine (zero_word_add _).trans (Finset.sum_congr rfl fun f _ => ?_)
  rw [show idx_main_v20 (ix3 l N k) f = ix4 l N k f from by funext a; match a with | ⟨0, _⟩ => rfl | ⟨1, _⟩ => rfl | ⟨2, _⟩ => rfl | ⟨3, _⟩ => rfl]
  rfl

theorem v22_at (t : Fin 30) (k : Fin 10) :
    val_main_v22 (F := Ideal) x0 x2 (ix4 l N t k) = ∑ f : Fin 4, EE x0 x2 (ix4 l N t f) * EE x0 x2 (ix4 l N t f) := by
  rw [val_main_v22_apply, show idx_main_v22 (ix4 l N t k) = ix4 l N t (0 : Fin 1) from by funext a; match a with | ⟨0, _⟩ => rfl | ⟨1, _⟩ => rfl | ⟨2, _⟩ => rfl | ⟨3, _⟩ => rfl,
    val_main_v18_apply, show idx_main_v18 (ix4 l N t (0 : Fin 1)) = ix3 l N t from by funext a; match a with | ⟨0, _⟩ => rfl | ⟨1, _⟩ => rfl | ⟨2, _⟩ => rfl, v17_at]

theorem v23_at (t : Fin 30) (k : Fin 10) :
    val_main_v23 (F := Ideal) x1 x3 (ix4 l N t k) = ∑ f : Fin 4, CC x1 x3 (ix4 l N k f) * CC x1 x3 (ix4 l N k f) := by
  rw [val_main_v23_apply, show idx_main_v23 (ix4 l N t k) = ix4 l N (0 : Fin 1) k from by funext a; match a with | ⟨0, _⟩ => rfl | ⟨1, _⟩ => rfl | ⟨2, _⟩ => rfl | ⟨3, _⟩ => rfl,
    val_main_v21_apply, show idx_main_v21 (ix4 l N (0 : Fin 1) k) = ix3 l N k from by funext a; match a with | ⟨0, _⟩ => rfl | ⟨1, _⟩ => rfl | ⟨2, _⟩ => rfl, v20_at]

theorem v25_at (t : Fin 30) (k : Fin 10) :
    val_main_v25 (F := Ideal) x0 x1 x2 x3 (ix4 l N t k) = ∑ f : Fin 4, EE x0 x2 (ix4 l N t f) * CC x1 x3 (ix4 l N k f) := by
  rw [val_main_v25_apply]
  refine Finset.sum_congr rfl fun f _ => ?_
  rw [show lidx_main_v25 (ix4 l N t k) f = ix4 l N t f from by funext a; match a with | ⟨0, _⟩ => rfl | ⟨1, _⟩ => rfl | ⟨2, _⟩ => rfl | ⟨3, _⟩ => rfl,
    show ridx_main_v25 (ix4 l N t k) f = ix4 l N k f from by funext a; match a with | ⟨0, _⟩ => rfl | ⟨1, _⟩ => rfl | ⟨2, _⟩ => rfl | ⟨3, _⟩ => rfl]

/-! ## The soft assignment and the soft centroids -/

theorem d2_at (t : Fin 30) (k : Fin 10) :
    val_main_v28 (F := Ideal) x0 x1 x2 x3 (ix4 l N t k) = dist2 (embRow (EE x0 x2) l N) (cenRow (CC x1 x3) l N) t k := by
  show (val_main_v22 (F := Ideal) x0 x2 (ix4 l N t k) + val_main_v23 (F := Ideal) x1 x3 (ix4 l N t k))
      - cTwo * val_main_v25 (F := Ideal) x0 x1 x2 x3 (ix4 l N t k) = _
  rw [v22_at, v23_at, v25_at]
  rfl

theorem raw_at (t : Fin 30) (k : Fin 10) :
    val_main_v32 (F := Ideal) x0 x1 x2 x3 (ix4 l N t k) = rawW (embRow (EE x0 x2) l N) (cenRow (CC x1 x3) l N) t k := by
  show Ideal.exp (Ideal.div (-(val_main_v28 (F := Ideal) x0 x1 x2 x3 (ix4 l N t k))) cBand) = _
  rw [d2_at]
  rfl

theorem v33_at (t : Fin 30) :
    val_main_v33 (F := Ideal) x0 x1 x2 x3 (ix3 l N t)
      = ∑ k : Fin 10, rawW (embRow (EE x0 x2) l N) (cenRow (CC x1 x3) l N) t k := by
  rw [val_main_v33_apply]
  refine (zero_word_add _).trans (Finset.sum_congr rfl fun k _ => ?_)
  rw [show idx_main_v33 (ix3 l N t) k = ix4 l N t k from by funext a; match a with | ⟨0, _⟩ => rfl | ⟨1, _⟩ => rfl | ⟨2, _⟩ => rfl | ⟨3, _⟩ => rfl]
  exact raw_at x0 x1 x2 x3 l N t k

theorem v37_at (t : Fin 30) (k : Fin 10) :
    val_main_v37 (F := Ideal) x0 x1 x2 x3 (ix4 l N t k)
      = (∑ k' : Fin 10, rawW (embRow (EE x0 x2) l N) (cenRow (CC x1 x3) l N) t k') + cEpsW := by
  rw [val_main_v37_apply, show idx_main_v37 (ix4 l N t k) = ix4 l N t (0 : Fin 1) from by funext a; match a with | ⟨0, _⟩ => rfl | ⟨1, _⟩ => rfl | ⟨2, _⟩ => rfl | ⟨3, _⟩ => rfl]
  show val_main_v34 (F := Ideal) x0 x1 x2 x3 (ix4 l N t (0 : Fin 1)) + cEpsW = _
  rw [val_main_v34_apply, show idx_main_v34 (ix4 l N t (0 : Fin 1)) = ix3 l N t from by funext a; match a with | ⟨0, _⟩ => rfl | ⟨1, _⟩ => rfl | ⟨2, _⟩ => rfl, v33_at]

theorem w_at (t : Fin 30) (k : Fin 10) :
    val_main_v38 (F := Ideal) x0 x1 x2 x3 (ix4 l N t k) = softW (embRow (EE x0 x2) l N) (cenRow (CC x1 x3) l N) t k := by
  show Ideal.div (val_main_v32 (F := Ideal) x0 x1 x2 x3 (ix4 l N t k)) (val_main_v37 (F := Ideal) x0 x1 x2 x3 (ix4 l N t k)) = _
  rw [raw_at, v37_at]
  rfl

theorem sc_at (t : Fin 30) (f : Fin 4) :
    val_main_v39 (F := Ideal) x0 x1 x2 x3 (ix4 l N t f) = softC (embRow (EE x0 x2) l N) (cenRow (CC x1 x3) l N) t f := by
  rw [val_main_v39_apply]
  refine Finset.sum_congr rfl fun k _ => ?_
  rw [show lidx_main_v39 (ix4 l N t f) k = ix4 l N t k from by funext a; match a with | ⟨0, _⟩ => rfl | ⟨1, _⟩ => rfl | ⟨2, _⟩ => rfl | ⟨3, _⟩ => rfl,
    show ridx_main_v39 (ix4 l N t f) k = ix4 l N k f from by funext a; match a with | ⟨0, _⟩ => rfl | ⟨1, _⟩ => rfl | ⟨2, _⟩ => rfl | ⟨3, _⟩ => rfl, w_at]
  rfl

/-! ## The pull and push terms -/

theorem pull_at (t : Fin 30) :
    val_main_v42 (F := Ideal) x0 x1 x2 x3 (ix3 l N t) = pullAt (embRow (EE x0 x2) l N) (cenRow (CC x1 x3) l N) t := by
  rw [val_main_v42_apply]
  refine (zero_word_add _).trans (Finset.sum_congr rfl fun f _ => ?_)
  rw [show idx_main_v42 (ix3 l N t) f = ix4 l N t f from by funext a; match a with | ⟨0, _⟩ => rfl | ⟨1, _⟩ => rfl | ⟨2, _⟩ => rfl | ⟨3, _⟩ => rfl]
  show (EE x0 x2 (ix4 l N t f) - val_main_v39 (F := Ideal) x0 x1 x2 x3 (ix4 l N t f))
      * (EE x0 x2 (ix4 l N t f) - val_main_v39 (F := Ideal) x0 x1 x2 x3 (ix4 l N t f)) = _
  rw [sc_at]
  rfl

theorem norm_at (t : Fin 30) :
    val_main_v47 (F := Ideal) x0 x1 x2 x3 (ix3 l N t) = normC (embRow (EE x0 x2) l N) (cenRow (CC x1 x3) l N) t := by
  rw [val_main_v47_apply]
  refine (zero_word_add _).trans (Finset.sum_congr rfl fun f _ => ?_)
  rw [show idx_main_v47 (ix3 l N t) f = ix4 l N t f from by funext a; match a with | ⟨0, _⟩ => rfl | ⟨1, _⟩ => rfl | ⟨2, _⟩ => rfl | ⟨3, _⟩ => rfl]
  show val_main_v39 (F := Ideal) x0 x1 x2 x3 (ix4 l N t f) * val_main_v39 (F := Ideal) x0 x1 x2 x3 (ix4 l N t f) = _
  rw [sc_at]

theorem v50_at (t s : Fin 30) :
    val_main_v50 (F := Ideal) x0 x1 x2 x3 (ix4 l N t s) = normC (embRow (EE x0 x2) l N) (cenRow (CC x1 x3) l N) t := by
  rw [val_main_v50_apply, show idx_main_v50 (ix4 l N t s) = ix4 l N t (0 : Fin 1) from by funext a; match a with | ⟨0, _⟩ => rfl | ⟨1, _⟩ => rfl | ⟨2, _⟩ => rfl | ⟨3, _⟩ => rfl,
    val_main_v48_apply, show idx_main_v48 (ix4 l N t (0 : Fin 1)) = ix3 l N t from by funext a; match a with | ⟨0, _⟩ => rfl | ⟨1, _⟩ => rfl | ⟨2, _⟩ => rfl, norm_at]

theorem v51_at (t s : Fin 30) :
    val_main_v51 (F := Ideal) x0 x1 x2 x3 (ix4 l N t s) = normC (embRow (EE x0 x2) l N) (cenRow (CC x1 x3) l N) s := by
  rw [val_main_v51_apply, show idx_main_v51 (ix4 l N t s) = ix4 l N (0 : Fin 1) s from by funext a; match a with | ⟨0, _⟩ => rfl | ⟨1, _⟩ => rfl | ⟨2, _⟩ => rfl | ⟨3, _⟩ => rfl,
    val_main_v49_apply, show idx_main_v49 (ix4 l N (0 : Fin 1) s) = ix3 l N s from by funext a; match a with | ⟨0, _⟩ => rfl | ⟨1, _⟩ => rfl | ⟨2, _⟩ => rfl, norm_at]

theorem v53_at (t s : Fin 30) :
    val_main_v53 (F := Ideal) x0 x1 x2 x3 (ix4 l N t s)
      = ∑ f : Fin 4, softC (embRow (EE x0 x2) l N) (cenRow (CC x1 x3) l N) t f * softC (embRow (EE x0 x2) l N) (cenRow (CC x1 x3) l N) s f := by
  rw [val_main_v53_apply]
  refine Finset.sum_congr rfl fun f _ => ?_
  rw [show lidx_main_v53 (ix4 l N t s) f = ix4 l N t f from by funext a; match a with | ⟨0, _⟩ => rfl | ⟨1, _⟩ => rfl | ⟨2, _⟩ => rfl | ⟨3, _⟩ => rfl,
    show ridx_main_v53 (ix4 l N t s) f = ix4 l N s f from by funext a; match a with | ⟨0, _⟩ => rfl | ⟨1, _⟩ => rfl | ⟨2, _⟩ => rfl | ⟨3, _⟩ => rfl, sc_at, sc_at]

theorem push_at (t s : Fin 30) :
    val_main_v64 (F := Ideal) x0 x1 x2 x3 (ix4 l N t s) = pushAt (embRow (EE x0 x2) l N) (cenRow (CC x1 x3) l N) t s := by
  show Ideal.div cOne (cEpsP + Ideal.div (max ((val_main_v50 (F := Ideal) x0 x1 x2 x3 (ix4 l N t s) + val_main_v51 (F := Ideal) x0 x1 x2 x3 (ix4 l N t s))
      - cTwo * val_main_v53 (F := Ideal) x0 x1 x2 x3 (ix4 l N t s)) cZero) cTwo) = _
  rw [v50_at, v51_at, v53_at]
  rfl

/-! ## A sum over the axes of a level -/

/-- The source indices of level `l` of a [16, 9261, 30] array are the pairs (row, entry). -/
theorem sum_level3 (h : S16x9261x30.ReducesTo [1, 2] S16) (x : S16x9261x30.Idx → EReal) :
    ∑ i ∈ Finset.univ.filter (fun i => h.drop i = ix1 l), x i = ∑ N : Fin 9261, ∑ t : Fin 30, x (ix3 l N t) := by
  rw [← Fintype.sum_prod_type' (fun (N : Fin 9261) (t : Fin 30) => x (ix3 l N t))]
  have hleft : ∀ i ∈ Finset.univ.filter (fun i : S16x9261x30.Idx => h.drop i = ix1 l),
      ix3 l (⟨(i 1).val, (i 1).isLt⟩ : Fin 9261) (⟨(i 2).val, (i 2).isLt⟩ : Fin 30) = i := by
    intro i hi
    have hj := (Finset.mem_filter.1 hi).2
    have h0 : (i 0).val = l.val := (h.drop_apply_val_of_eq i 0 0).symm.trans (congrArg (fun j => (j 0).val) hj)
    funext a
    match a with
    | ⟨0, _⟩ => exact Fin.ext h0.symm
    | ⟨1, _⟩ => rfl
    | ⟨2, _⟩ => rfl
  refine Finset.sum_nbij' (fun i => ((⟨(i 1).val, (i 1).isLt⟩ : Fin 9261), (⟨(i 2).val, (i 2).isLt⟩ : Fin 30)))
    (fun p => ix3 l p.1 p.2) ?_ ?_ ?_ ?_ ?_
  · intro i _; simp only [Finset.mem_univ]
  · intro p _
    refine Finset.mem_filter.2 ⟨Finset.mem_univ _, funext fun b => ?_⟩
    match b with
    | ⟨0, _⟩ => exact Fin.ext (h.drop_apply_val_of_eq (ix3 l p.1 p.2) 0 0)
  · intro i hi; exact hleft i hi
  · intro p _; rfl
  · intro i hi; exact congrArg x (hleft i hi).symm

/-- The source indices of level `l` of a [16, 9261, 30, 30] array are the triples (row, entry, entry). -/
theorem sum_level4 (h : S16x9261x30x30.ReducesTo [1, 2, 3] S16) (x : S16x9261x30x30.Idx → EReal) :
    ∑ i ∈ Finset.univ.filter (fun i => h.drop i = ix1 l), x i
      = ∑ N : Fin 9261, ∑ t : Fin 30, ∑ s : Fin 30, x (ix4 l N t s) := by
  have e : ∑ N : Fin 9261, ∑ t : Fin 30, ∑ s : Fin 30, x (ix4 l N t s)
      = ∑ p : Fin 9261 × Fin 30 × Fin 30, x (ix4 l p.1 p.2.1 p.2.2) := by
    rw [Fintype.sum_prod_type]
    refine Finset.sum_congr rfl fun N _ => ?_
    rw [Fintype.sum_prod_type]
  rw [e]
  have hleft : ∀ i ∈ Finset.univ.filter (fun i : S16x9261x30x30.Idx => h.drop i = ix1 l),
      ix4 l (⟨(i 1).val, (i 1).isLt⟩ : Fin 9261) (⟨(i 2).val, (i 2).isLt⟩ : Fin 30) (⟨(i 3).val, (i 3).isLt⟩ : Fin 30) = i := by
    intro i hi
    have hj := (Finset.mem_filter.1 hi).2
    have h0 : (i 0).val = l.val := (h.drop_apply_val_of_eq i 0 0).symm.trans (congrArg (fun j => (j 0).val) hj)
    funext a
    match a with
    | ⟨0, _⟩ => exact Fin.ext h0.symm
    | ⟨1, _⟩ => rfl
    | ⟨2, _⟩ => rfl
    | ⟨3, _⟩ => rfl
  refine Finset.sum_nbij' (fun i => ((⟨(i 1).val, (i 1).isLt⟩ : Fin 9261), (⟨(i 2).val, (i 2).isLt⟩ : Fin 30), (⟨(i 3).val, (i 3).isLt⟩ : Fin 30)))
    (fun p => ix4 l p.1 p.2.1 p.2.2) ?_ ?_ ?_ ?_ ?_
  · intro i _; simp only [Finset.mem_univ]
  · intro p _
    refine Finset.mem_filter.2 ⟨Finset.mem_univ _, funext fun b => ?_⟩
    match b with
    | ⟨0, _⟩ => exact Fin.ext (h.drop_apply_val_of_eq (ix4 l p.1 p.2.1 p.2.2) 0 0)
  · intro i hi; exact hleft i hi
  · intro p _; rfl
  · intro i hi; exact congrArg x (hleft i hi).symm

theorem pullLevel_at :
    val_main_v43 (F := Ideal) x0 x1 x2 x3 (ix1 l) = pullLevel (EE x0 x2) (CC x1 x3) l := by
  unfold val_main_v43 pullLevel pullRow
  simp only [Host.reduceAdd, Ideal.hostReduceAdd_def]
  unfold Ideal.hostReduceAdd
  rw [sum_level3]
  exact congrArg (cZero + ·) (Finset.sum_congr rfl fun N _ => Finset.sum_congr rfl fun t _ => pull_at x0 x1 x2 x3 l N t)

theorem pushLevel_at :
    val_main_v65 (F := Ideal) x0 x1 x2 x3 (ix1 l) = pushLevel (EE x0 x2) (CC x1 x3) l := by
  unfold val_main_v65 pushLevel pushRow
  simp only [Host.reduceAdd, Ideal.hostReduceAdd_def]
  unfold Ideal.hostReduceAdd
  rw [sum_level4]
  exact congrArg (cZero + ·) (Finset.sum_congr rfl fun N _ => Finset.sum_congr rfl fun t _ =>
    Finset.sum_congr rfl fun s _ => push_at x0 x1 x2 x3 l N t s)

/-! ## The result -/

theorem level_idx (j : S16.Idx) : j = ix1 (⟨(j 0).val, (j 0).isLt⟩ : Fin 16) := by
  funext a; match a with | ⟨0, _⟩ => rfl

/-- The reference's result is `total` of the gathered arrays. -/
theorem result_at (i : S_.Idx) :
    val_main_v70 (F := Ideal) x0 x1 x2 x3 i = total (EE x0 x2) (CC x1 x3) := by
  rw [val_main_v70_apply, val_main_v68_apply, val_main_v69_apply]
  unfold total
  refine add_congr (add_congr rfl (Finset.sum_congr rfl fun j _ => ?_)) (add_congr rfl (Finset.sum_congr rfl fun j _ => ?_))
  · show Ideal.div (val_main_v65 (F := Ideal) x0 x1 x2 x3 j) cPushN = _
    rw [level_idx j, pushLevel_at]
  · show Ideal.div (val_main_v43 (F := Ideal) x0 x1 x2 x3 j) cPullN = _
    rw [level_idx j, pullLevel_at]

end Cert.ReferenceIdeal.RefValue

end
-- ==== Proof.lean ====
/-
  The proof of `Cert.Claim`: the tiled push/pull kernel against its whole-array reference, over the extended reals.

  Both programs gather the same embeddings `E` [16, 9261, 30, 4] and centroids `C` [16, 9261, 10, 4] on the host by the
  same lines.  For each row (level `l`, sample `N`) both compute the same soft assignment of the row's 30 embeddings to
  its 10 centroids, the same soft centroids, the same pull terms (squared distance of an embedding to its soft
  centroid) and push terms (a reciprocal of the clamped squared distance of two soft centroids): the kernel by
  broadcasts, products and lane sums over a tile of 441 rows, the reference by batched inner products over all rows.
  The kernel adds each tile's sums into lane 0 of an accumulator block per level, 21 tiles a level, and the host divides
  lane 0 by the number of terms and sums the 16 levels; the reference sums a level's terms at once.  The two results are
  the same extended real because a sum over 9261 rows is the sum over 21 tiles of the sums over 441 rows — addition of
  extended reals is commutative and associative — and every other step is the same operation on the same operands.
  Finiteness of the inputs is not used.

  Proof/RowMath.lean is the row mathematics and the tiling law, Proof/LibLayout.lean the reshapes, broadcasts and
  lane sums read at an index, Proof/KernelBody.lean the kernel's arithmetic read index by index,
  Proof/KernelIdealCases.lean what a grid point leaves in the accumulators, Proof/KernelAccum.lean the accumulation over
  a level's tiles, Proof/KernelRun.lean the kernel's run with the host lines around the region, Proof/RefValue.lean the
  reference read index by index.  The three frames are the generated ones; the ideal pass rewrote nothing.
-/
import proofs.«160341_j88673894793881_2_alg».proof.Defs
import proofs.«160341_j88673894793881_2_alg».proof.Proof.Gen.Kernel
import proofs.«160341_j88673894793881_2_alg».proof.Proof.Gen.Kernel.Frame
import proofs.«160341_j88673894793881_2_alg».proof.Proof.Gen.KernelIdeal
import proofs.«160341_j88673894793881_2_alg».proof.Proof.Gen.KernelIdeal.Frame
import proofs.«160341_j88673894793881_2_alg».proof.Proof.Gen.ReferenceIdeal
import proofs.«160341_j88673894793881_2_alg».proof.Proof.Gen.ReferenceIdeal.Run
import proofs.«160341_j88673894793881_2_alg».proof.Proof.Gen.ReferenceIdeal.Read
import proofs.«160341_j88673894793881_2_alg».proof.Proof.Gen.Pre_finite_inputs
import proofs.«160341_j88673894793881_2_alg».proof.Proof.KernelRun
import proofs.«160341_j88673894793881_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are `total` of the gathered arrays of arguments that agree. -/
theorem algebraic : Cert.algebraic_KernelIdeal_ReferenceIdeal := by
  intro m ρ m' ρ' _ hagree
  refine ⟨fun c => fun _ => PushPull.total (Cert.KernelIdeal.Gen.V m c Cert.KernelIdeal.main_v6)
    (Cert.KernelIdeal.Gen.V m c Cert.KernelIdeal.main_v15), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq]
  funext i
  rw [Cert.ReferenceIdeal.RefValue.result_at, (hagree c).1, (hagree c).2.1, (hagree c).2.2.1, (hagree c).2.2.2]
  show _ = PushPull.total (Cert.KernelIdeal.Gen.V m c Cert.KernelIdeal.main_v6) (Cert.KernelIdeal.Gen.V m c Cert.KernelIdeal.main_v15)
  rw [Cert.KernelIdeal.Run.found_emb, Cert.KernelIdeal.Run.found_cen]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
